-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x2048 : Shape := ⟨2, ![16384, 2048]⟩
abbrev S2048x5504 : Shape := ⟨2, ![2048, 5504]⟩
abbrev S5504x2048 : Shape := ⟨2, ![5504, 2048]⟩
abbrev S16384 : Shape := ⟨1, ![16384]⟩
abbrev S_ : Shape := ⟨0, ![]⟩

class Facts : Prop where
  bcast_S_S16384x2048 : S_.BroadcastsInDim S16384x2048 (![] : Fin 0 → Fin S16384x2048.rank)
  reducesTo_S16384x2048_S_d0_1 : S16384x2048.ReducesTo [0, 1] S_
  h_S_ : 0 < S_.numel
  bcast_S_S2048x5504 : S_.BroadcastsInDim S2048x5504 (![] : Fin 0 → Fin S2048x5504.rank)
  reducesTo_S2048x5504_S_d0_1 : S2048x5504.ReducesTo [0, 1] S_
  bcast_S_S5504x2048 : S_.BroadcastsInDim S5504x2048 (![] : Fin 0 → Fin S5504x2048.rank)
  reducesTo_S5504x2048_S_d0_1 : S5504x2048.ReducesTo [0, 1] S_

variable [Facts]

def fn_part1 {F : FTy → Type} [FloatOps F] (main_arg4 : FVec F S2048x5504 .f32) (main_arg5 : FVec F S2048x5504 .f32) (main_arg6 : FVec F S5504x2048 .f32) (main_v13 : IVec S_ 1) (main_v16 : IVec S5504x2048 1) : IVec S_ 1 :=
  let main_c_5 : IVec S_ 1 := constantI S_ 1 1#1
  let main_v17 : IVec S_ 1 := (fun x v => Host.reduce IntOp.andi x v reducesTo_S5504x2048_S_d0_1 h_S_) main_v16 main_c_5
  let main_v18 : IVec S_ 1 := andi main_v13 main_v17
  let main_v19 : FVec F S2048x5504 .f32 := Host.absf main_arg4
  let main_cst_6 : FVec F S_ .f32 := constant S_ .f32 0x7F800000#32
  let main_v20 : FVec F S2048x5504 .f32 := broadcastInDim S2048x5504 ![] bcast_S_S2048x5504 main_cst_6
  let main_v21 : IVec S2048x5504 1 := cmpf .olt main_v19 main_v20
  let main_c_7 : IVec S_ 1 := constantI S_ 1 1#1
  let main_v22 : IVec S_ 1 := (fun x v => Host.reduce IntOp.andi x v reducesTo_S2048x5504_S_d0_1 h_S_) main_v21 main_c_7
  let main_v23 : IVec S_ 1 := andi main_v18 main_v22
  let main_v24 : FVec F S2048x5504 .f32 := Host.absf main_arg5
  let main_cst_8 : FVec F S_ .f32 := constant S_ .f32 0x7F800000#32
  let main_v25 : FVec F S2048x5504 .f32 := broadcastInDim S2048x5504 ![] bcast_S_S2048x5504 main_cst_8
  let main_v26 : IVec S2048x5504 1 := cmpf .olt main_v24 main_v25
  let main_c_9 : IVec S_ 1 := constantI S_ 1 1#1
  let main_v27 : IVec S_ 1 := (fun x v => Host.reduce IntOp.andi x v reducesTo_S2048x5504_S_d0_1 h_S_) main_v26 main_c_9
  let main_v28 : IVec S_ 1 := andi main_v23 main_v27
  let main_v29 : FVec F S5504x2048 .f32 := Host.absf main_arg6
  let main_cst_10 : FVec F S_ .f32 := constant S_ .f32 0x7F800000#32
  let main_v30 : FVec F S5504x2048 .f32 := broadcastInDim S5504x2048 ![] bcast_S_S5504x2048 main_cst_10
  let main_v31 : IVec S5504x2048 1 := cmpf .olt main_v29 main_v30
  let main_c_11 : IVec S_ 1 := constantI S_ 1 1#1
  let main_v32 : IVec S_ 1 := (fun x v => Host.reduce IntOp.andi x v reducesTo_S5504x2048_S_d0_1 h_S_) main_v31 main_c_11
  let main_v33 : IVec S_ 1 := andi main_v28 main_v32
  main_v33

def fn {F : FTy → Type} [FloatOps F] (main_arg0 : FVec F S16384x2048 .f32) (main_arg1 : FVec F S2048x5504 .f32) (main_arg2 : FVec F S2048x5504 .f32) (main_arg3 : FVec F S5504x2048 .f32) (main_arg4 : FVec F S2048x5504 .f32) (main_arg5 : FVec F S2048x5504 .f32) (main_arg6 : FVec F S5504x2048 .f32) (main_arg7 : IVec S16384 1) : IVec S_ 1 :=
  let main_v0 : FVec F S16384x2048 .f32 := Host.absf main_arg0
  let main_cst : FVec F S_ .f32 := constant S_ .f32 0x7F800000#32
  let main_v1 : FVec F S16384x2048 .f32 := broadcastInDim S16384x2048 ![] bcast_S_S16384x2048 main_cst
  let main_v2 : IVec S16384x2048 1 := cmpf .olt main_v0 main_v1
  let main_c : IVec S_ 1 := constantI S_ 1 1#1
  let main_v3 : IVec S_ 1 := (fun x v => Host.reduce IntOp.andi x v reducesTo_S16384x2048_S_d0_1 h_S_) main_v2 main_c
  let main_v4 : FVec F S2048x5504 .f32 := Host.absf main_arg1
  let main_cst_0 : FVec F S_ .f32 := constant S_ .f32 0x7F800000#32
  let main_v5 : FVec F S2048x5504 .f32 := broadcastInDim S2048x5504 ![] bcast_S_S2048x5504 main_cst_0
  let main_v6 : IVec S2048x5504 1 := cmpf .olt main_v4 main_v5
  let main_c_1 : IVec S_ 1 := constantI S_ 1 1#1
  let main_v7 : IVec S_ 1 := (fun x v => Host.reduce IntOp.andi x v reducesTo_S2048x5504_S_d0_1 h_S_) main_v6 main_c_1
  let main_v8 : IVec S_ 1 := andi main_v3 main_v7
  let main_v9 : FVec F S2048x5504 .f32 := Host.absf main_arg2
  let main_cst_2 : FVec F S_ .f32 := constant S_ .f32 0x7F800000#32
  let main_v10 : FVec F S2048x5504 .f32 := broadcastInDim S2048x5504 ![] bcast_S_S2048x5504 main_cst_2
  let main_v11 : IVec S2048x5504 1 := cmpf .olt main_v9 main_v10
  let main_c_3 : IVec S_ 1 := constantI S_ 1 1#1
  let main_v12 : IVec S_ 1 := (fun x v => Host.reduce IntOp.andi x v reducesTo_S2048x5504_S_d0_1 h_S_) main_v11 main_c_3
  let main_v13 : IVec S_ 1 := andi main_v8 main_v12
  let main_v14 : FVec F S5504x2048 .f32 := Host.absf main_arg3
  let main_cst_4 : FVec F S_ .f32 := constant S_ .f32 0x7F800000#32
  let main_v15 : FVec F S5504x2048 .f32 := broadcastInDim S5504x2048 ![] bcast_S_S5504x2048 main_cst_4
  let main_v16 : IVec S5504x2048 1 := cmpf .olt main_v14 main_v15
  fn_part1 (F := F) main_arg4 main_arg5 main_arg6 main_v13 main_v16
-- ==== Kernel.lean ====
abbrev S16384x2048 : Shape := ⟨2, ![16384, 2048]⟩
abbrev S2048x5504 : Shape := ⟨2, ![2048, 5504]⟩
abbrev S5504x2048 : Shape := ⟨2, ![5504, 2048]⟩
abbrev S16384 : Shape := ⟨1, ![16384]⟩
abbrev S_ : Shape := ⟨0, ![]⟩
abbrev S2048x5632 : Shape := ⟨2, ![2048, 5632]⟩
abbrev S5632x2048 : Shape := ⟨2, ![5632, 2048]⟩
abbrev S16384x1 : Shape := ⟨2, ![16384, 1]⟩
abbrev S1024x2048 : Shape := ⟨2, ![1024, 2048]⟩
abbrev S2048x256 : Shape := ⟨2, ![2048, 256]⟩
abbrev S256x2048 : Shape := ⟨2, ![256, 2048]⟩
abbrev S1024x1 : Shape := ⟨2, ![1024, 1]⟩
abbrev S1024x256 : Shape := ⟨2, ![1024, 256]⟩

abbrev nBuf : Space → Nat
  | .hbm => 36
  | .vmem => 16
  | .smem => 0
  | _ => 0

abbrev bufTy : (tb : Table) → Fin (tcTables nBuf tb) → BufTy
  | .hbm, ⟨0, _⟩ => ⟨S16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048x5504, .f32⟩
  | .hbm, ⟨5, _⟩ => ⟨S2048x5504, .f32⟩
  | .hbm, ⟨6, _⟩ => ⟨S5504x2048, .f32⟩
  | .hbm, ⟨7, _⟩ => ⟨S16384, .i1⟩
  | .hbm, ⟨8, _⟩ => ⟨S16384x2048, .bf16⟩
  | .hbm, ⟨9, _⟩ => ⟨S_, .i32⟩
  | .hbm, ⟨10, _⟩ => ⟨S_, .f32⟩
  | .hbm, ⟨11, _⟩ => ⟨S2048x5632, .f32⟩
  | .hbm, ⟨12, _⟩ => ⟨S2048x5632, .bf16⟩
  | .hbm, ⟨13, _⟩ => ⟨S_, .i32⟩
  | .hbm, ⟨14, _⟩ => ⟨S_, .f32⟩
  | .hbm, ⟨15, _⟩ => ⟨S2048x5632, .f32⟩
  | .hbm, ⟨16, _⟩ => ⟨S2048x5632, .bf16⟩
  | .hbm, ⟨17, _⟩ => ⟨S_, .i32⟩
  | .hbm, ⟨18, _⟩ => ⟨S_, .f32⟩
  | .hbm, ⟨19, _⟩ => ⟨S5632x2048, .f32⟩
  | .hbm, ⟨20, _⟩ => ⟨S5632x2048, .bf16⟩
  | .hbm, ⟨21, _⟩ => ⟨S_, .i32⟩
  | .hbm, ⟨22, _⟩ => ⟨S_, .f32⟩
  | .hbm, ⟨23, _⟩ => ⟨S2048x5632, .f32⟩
  | .hbm, ⟨24, _⟩ => ⟨S2048x5632, .bf16⟩
  | .hbm, ⟨25, _⟩ => ⟨S_, .i32⟩
  | .hbm, ⟨26, _⟩ => ⟨S_, .f32⟩
  | .hbm, ⟨27, _⟩ => ⟨S2048x5632, .f32⟩
  | .hbm, ⟨28, _⟩ => ⟨S2048x5632, .bf16⟩
  | .hbm, ⟨29, _⟩ => ⟨S_, .i32⟩
  | .hbm, ⟨30, _⟩ => ⟨S_, .f32⟩
  | .hbm, ⟨31, _⟩ => ⟨S5632x2048, .f32⟩
  | .hbm, ⟨32, _⟩ => ⟨S5632x2048, .bf16⟩
  | .hbm, ⟨33, _⟩ => ⟨S16384, .f32⟩
  | .hbm, ⟨34, _⟩ => ⟨S16384x1, .f32⟩
  | .hbm, ⟨35, _⟩ => ⟨S16384x2048, .f32⟩
  | .local _ .vmem, ⟨0, _⟩ => ⟨S1024x2048, .bf16⟩
  | .local _ .vmem, ⟨1, _⟩ => ⟨S2048x256, .bf16⟩
  | .local _ .vmem, ⟨2, _⟩ => ⟨S2048x256, .bf16⟩
  | .local _ .vmem, ⟨3, _⟩ => ⟨S2048x256, .bf16⟩
  | .local _ .vmem, ⟨4, _⟩ => ⟨S2048x256, .bf16⟩
  | .local _ .vmem, ⟨5, _⟩ => ⟨S256x2048, .bf16⟩
  | .local _ .vmem, ⟨6, _⟩ => ⟨S256x2048, .bf16⟩
  | .local _ .vmem, ⟨7, _⟩ => ⟨S2048x256, .bf16⟩
  | .local _ .vmem, ⟨8, _⟩ => ⟨S2048x256, .bf16⟩
  | .local _ .vmem, ⟨9, _⟩ => ⟨S2048x256, .bf16⟩
  | .local _ .vmem, ⟨10, _⟩ => ⟨S2048x256, .bf16⟩
  | .local _ .vmem, ⟨11, _⟩ => ⟨S256x2048, .bf16⟩
  | .local _ .vmem, ⟨12, _⟩ => ⟨S256x2048, .bf16⟩
  | .local _ .vmem, ⟨13, _⟩ => ⟨S1024x1, .f32⟩
  | .local _ .vmem, ⟨14, _⟩ => ⟨S1024x2048, .f32⟩
  | .local _ .vmem, ⟨15, _⟩ => ⟨S1024x2048, .f32⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_c : Ref sig .tc := ⟨.hbm, 9, rfl⟩
abbrev main_call0_v0 : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_call1_v0 : Ref sig .tc := ⟨.hbm, 14, rfl⟩
abbrev main_v3 : Ref sig .tc := ⟨.hbm, 15, rfl⟩
abbrev main_v4 : Ref sig .tc := ⟨.hbm, 16, rfl⟩
abbrev main_c_1 : Ref sig .tc := ⟨.hbm, 17, rfl⟩
abbrev main_call2_v0 : Ref sig .tc := ⟨.hbm, 18, rfl⟩
abbrev main_v5 : Ref sig .tc := ⟨.hbm, 19, rfl⟩
abbrev main_v6 : Ref sig .tc := ⟨.hbm, 20, rfl⟩
abbrev main_c_2 : Ref sig .tc := ⟨.hbm, 21, rfl⟩
abbrev main_call3_v0 : Ref sig .tc := ⟨.hbm, 22, rfl⟩
abbrev main_v7 : Ref sig .tc := ⟨.hbm, 23, rfl⟩
abbrev main_v8 : Ref sig .tc := ⟨.hbm, 24, rfl⟩
abbrev main_c_3 : Ref sig .tc := ⟨.hbm, 25, rfl⟩
abbrev main_call4_v0 : Ref sig .tc := ⟨.hbm, 26, rfl⟩
abbrev main_v9 : Ref sig .tc := ⟨.hbm, 27, rfl⟩
abbrev main_v10 : Ref sig .tc := ⟨.hbm, 28, rfl⟩
abbrev main_c_4 : Ref sig .tc := ⟨.hbm, 29, rfl⟩
abbrev main_call5_v0 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_scratch0 : Ref sig .tc := ⟨.vmem, 15, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12
abbrev cc0_sem7_0 : DmaSem sig := 13
abbrev cc0_sem8_0 : DmaSem sig := 14

abbrev nD : Nat := 1
abbrev τ : Topo := Topo.v7x

variable {F : FTy → Type} [FloatOps F]

abbrev grid0 : Pipeline.Grid := ⟨2, ![16, 22], ![false, false]⟩

def k0_cond2 (i : grid0.Coords) : BitVec 1 :=
  let arg1 : BitVec 32 := BitVec.ofNat 32 (i 1).val
  let c21_i32 : BitVec 32 := 21#32
  let v45 : BitVec 1 := Scalar.cmpi .eq arg1 c21_i32
  let v46 : BitVec 32 := Scalar.extui v45
  let c0_i32_26 : BitVec 32 := 0#32
  let v47 : BitVec 1 := Scalar.cmpi .ne v46 c0_i32_26
  v47

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S2048x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S2048x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1024x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true, false]

abbrev stage0_8 : Fin 1 → Memref sig .tc .vmem S1024x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]

class Facts₀ : Prop where
  bitsLt_bf16_f32 : FTy.bits .bf16 < FTy.bits .f32
  pads_S2048x5504_S2048x5632_000_01280 : S2048x5504.Pads (![0, 0] : Fin 2 → Nat) ![0, 128] ![0, 0] S2048x5632
  h_S_ : 0 < S_.numel
  pads_S5504x2048_S5632x2048_01280_000 : S5504x2048.Pads (![0, 0] : Fin 2 → Nat) ![128, 0] ![0, 0] S5632x2048
  bcast_S16384_S16384x1_0 : S16384.BroadcastsInDim S16384x1 (![0] : Fin 1 → Fin S16384x1.rank)
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S2048x256_S2048x256_0_0 : ∀ a, (![0, 0] : Fin 2 → Nat) a + S2048x256.size a ≤ S2048x256.size a
  h_S2048x256 : 0 < S2048x256.numel
  shapeCasts_S2048x256_S2048x256 : S2048x256.ShapeCasts S2048x256
  broadcasts_S1024x1_S1024x256 : S1024x1.Broadcasts S1024x256
  inb_S256x2048_S256x2048_0_0 : ∀ a, (![0, 0] : Fin 2 → Nat) a + S256x2048.size a ≤ S256x2048.size a
  h_S256x2048 : 0 < S256x2048.numel
  shapeCasts_S256x2048_S256x2048 : S256x2048.ShapeCasts S256x2048
  dot_S1024x2048_S2048x256_S1024x256_1_0_0_1_n_n_wf : DotDims.WF S1024x2048 S2048x256 S1024x256 [1] [0] [0] [1] [] []
  dot_S1024x256_S256x2048_S1024x2048_1_0_0_1_n_n_wf : DotDims.WF S1024x256 S256x2048 S1024x2048 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S1024x2048.size a ≤ S16384x2048.size a
  hwx0_0 : ∀ i : grid0.Coords, EltTy.bits .bf16 = 32 ∨ (Rect.block (s := S16384x2048) S1024x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x256.size a ≤ S2048x5632.size a
  hwx0_1 : ∀ i : grid0.Coords, EltTy.bits .bf16 = 32 ∨ (Rect.block (s := S2048x5632) S2048x256.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2048x256.size a ≤ S2048x5632.size a
  hwx0_2 : ∀ i : grid0.Coords, EltTy.bits .bf16 = 32 ∨ (Rect.block (s := S2048x5632) S2048x256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x2048.size a ≤ S5632x2048.size a
  hwx0_3 : ∀ i : grid0.Coords, EltTy.bits .bf16 = 32 ∨ (Rect.block (s := S5632x2048) S256x2048.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S2048x256.size a ≤ S2048x5632.size a
  hwx0_4 : ∀ i : grid0.Coords, EltTy.bits .bf16 = 32 ∨ (Rect.block (s := S2048x5632) S2048x256.size (cc0_transform_4 i) (hinb0_4 i)).WholeWords (EltTy.packing .bf16)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2048x256.size a ≤ S2048x5632.size a
  hwx0_5 : ∀ i : grid0.Coords, EltTy.bits .bf16 = 32 ∨ (Rect.block (s := S2048x5632) S2048x256.size (cc0_transform_5 i) (hinb0_5 i)).WholeWords (EltTy.packing .bf16)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x2048.size a ≤ S5632x2048.size a
  hwx0_6 : ∀ i : grid0.Coords, EltTy.bits .bf16 = 32 ∨ (Rect.block (s := S5632x2048) S256x2048.size (cc0_transform_6 i) (hinb0_6 i)).WholeWords (EltTy.packing .bf16)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1024x1.size a ≤ S16384x1.size a
  hwx0_7 : ∀ i : grid0.Coords, EltTy.bits .f32 = 32 ∨ (Rect.block (s := S16384x1) S1024x1.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1024x2048.size a ≤ S16384x2048.size a
  hwx0_8 : ∀ i : grid0.Coords, EltTy.bits .f32 = 32 ∨ (Rect.block (s := S16384x2048) S1024x2048.size (cc0_transform_8 i) (hinb0_8 i)).WholeWords (EltTy.packing .f32)

variable [Facts₀]

def dot_S1024x2048_S2048x256_S1024x256_1_0_0_1_n_n : DotDims S1024x2048 S2048x256 S1024x256 where
  lhsContracting := [1]
  rhsContracting := [0]
  lhsNonContracting := [0]
  rhsNonContracting := [1]
  lhsBatch := []
  rhsBatch := []
  wf := dot_S1024x2048_S2048x256_S1024x256_1_0_0_1_n_n_wf
def dot_S1024x256_S256x2048_S1024x2048_1_0_0_1_n_n : DotDims S1024x256 S256x2048 S1024x2048 where
  lhsContracting := [1]
  rhsContracting := [0]
  lhsNonContracting := [0]
  rhsNonContracting := [1]
  lhsBatch := []
  rhsBatch := []
  wf := dot_S1024x256_S256x2048_S1024x2048_1_0_0_1_n_n_wf

abbrev win0_0 : Pipeline.Window sig grid0 :=
  Pipeline.Window.ofSpec (Memref.whole main_v0) S1024x2048.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v2) S2048x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v4) S2048x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S256x2048.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8) S2048x256.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2048x256.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v12) S256x2048.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_v14) S1024x1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v15) S1024x2048.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond2 i == 1#1) | ⟨_ + 9, h⟩ => absurd h (Nat.not_lt.2 (Nat.le_add_left _ _))

class Facts : Prop extends Facts₀ where

variable [Facts]
-- ==== ReferenceIdeal.lean ====
abbrev S16384x2048 : Shape := ⟨2, ![16384, 2048]⟩
abbrev S2048x5504 : Shape := ⟨2, ![2048, 5504]⟩
abbrev S5504x2048 : Shape := ⟨2, ![5504, 2048]⟩
abbrev S16384 : Shape := ⟨1, ![16384]⟩
abbrev S16384x5504 : Shape := ⟨2, ![16384, 5504]⟩
abbrev S_ : Shape := ⟨0, ![]⟩
abbrev S16384x1 : Shape := ⟨2, ![16384, 1]⟩

abbrev nBuf : Space → Nat
  | .hbm => 37
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S2048x5504, .f32⟩
  | .hbm, ⟨2, _⟩ => ⟨S2048x5504, .f32⟩
  | .hbm, ⟨3, _⟩ => ⟨S5504x2048, .f32⟩
  | .hbm, ⟨4, _⟩ => ⟨S2048x5504, .f32⟩
  | .hbm, ⟨5, _⟩ => ⟨S2048x5504, .f32⟩
  | .hbm, ⟨6, _⟩ => ⟨S5504x2048, .f32⟩
  | .hbm, ⟨7, _⟩ => ⟨S16384, .i1⟩
  | .hbm, ⟨8, _⟩ => ⟨S16384x5504, .f32⟩
  | .hbm, ⟨9, _⟩ => ⟨S16384x5504, .f32⟩
  | .hbm, ⟨10, _⟩ => ⟨S16384x5504, .f32⟩
  | .hbm, ⟨11, _⟩ => ⟨S_, .f32⟩
  | .hbm, ⟨12, _⟩ => ⟨S16384x5504, .f32⟩
  | .hbm, ⟨13, _⟩ => ⟨S16384x5504, .f32⟩
  | .hbm, ⟨14, _⟩ => ⟨S_, .f32⟩
  | .hbm, ⟨15, _⟩ => ⟨S16384x5504, .f32⟩
  | .hbm, ⟨16, _⟩ => ⟨S16384x5504, .f32⟩
  | .hbm, ⟨17, _⟩ => ⟨S16384x5504, .f32⟩
  | .hbm, ⟨18, _⟩ => ⟨S16384x5504, .f32⟩
  | .hbm, ⟨19, _⟩ => ⟨S16384x5504, .f32⟩
  | .hbm, ⟨20, _⟩ => ⟨S16384x2048, .f32⟩
  | .hbm, ⟨21, _⟩ => ⟨S16384x5504, .f32⟩
  | .hbm, ⟨22, _⟩ => ⟨S16384x5504, .f32⟩
  | .hbm, ⟨23, _⟩ => ⟨S16384x5504, .f32⟩
  | .hbm, ⟨24, _⟩ => ⟨S_, .f32⟩
  | .hbm, ⟨25, _⟩ => ⟨S16384x5504, .f32⟩
  | .hbm, ⟨26, _⟩ => ⟨S16384x5504, .f32⟩
  | .hbm, ⟨27, _⟩ => ⟨S_, .f32⟩
  | .hbm, ⟨28, _⟩ => ⟨S16384x5504, .f32⟩
  | .hbm, ⟨29, _⟩ => ⟨S16384x5504, .f32⟩
  | .hbm, ⟨30, _⟩ => ⟨S16384x5504, .f32⟩
  | .hbm, ⟨31, _⟩ => ⟨S16384x5504, .f32⟩
  | .hbm, ⟨32, _⟩ => ⟨S16384x5504, .f32⟩
  | .hbm, ⟨33, _⟩ => ⟨S16384x2048, .f32⟩
  | .hbm, ⟨34, _⟩ => ⟨S16384x1, .i1⟩
  | .hbm, ⟨35, _⟩ => ⟨S16384x2048, .i1⟩
  | .hbm, ⟨36, _⟩ => ⟨S16384x2048, .f32⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_call1_v0 : Ref sig .tc := ⟨.hbm, 22, rfl⟩
abbrev main_call1_v1 : Ref sig .tc := ⟨.hbm, 23, rfl⟩
abbrev main_call1_cst : Ref sig .tc := ⟨.hbm, 24, rfl⟩
abbrev main_call1_v2 : Ref sig .tc := ⟨.hbm, 25, rfl⟩
abbrev main_call1_v3 : Ref sig .tc := ⟨.hbm, 26, rfl⟩
abbrev main_call1_cst_0 : Ref sig .tc := ⟨.hbm, 27, rfl⟩
abbrev main_call1_v4 : Ref sig .tc := ⟨.hbm, 28, rfl⟩
abbrev main_call1_v5 : Ref sig .tc := ⟨.hbm, 29, rfl⟩
abbrev main_v6 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_call2_v0 : Ref sig .tc := ⟨.hbm, 35, rfl⟩
abbrev main_v11 : Ref sig .tc := ⟨.hbm, 36, rfl⟩

abbrev nD : Nat := 1
abbrev τ : Topo := Topo.v7x

variable {F : FTy → Type} [FloatOps F]

class Facts₀ : Prop where
  bcast_S_S16384x5504 : S_.BroadcastsInDim S16384x5504 (![] : Fin 0 → Fin S16384x5504.rank)
  bcast_S16384_S16384x1_0 : S16384.BroadcastsInDim S16384x1 (![0] : Fin 1 → Fin S16384x1.rank)
  bcast_S16384x1_S16384x2048_0_1 : S16384x1.BroadcastsInDim S16384x2048 (![0, 1] : Fin 2 → Fin S16384x2048.rank)
  dot_S16384x2048_S2048x5504_S16384x5504_1_0_0_1_n_n_wf : DotDims.WF S16384x2048 S2048x5504 S16384x5504 [1] [0] [0] [1] [] []
  dot_S16384x5504_S5504x2048_S16384x2048_1_0_0_1_n_n_wf : DotDims.WF S16384x5504 S5504x2048 S16384x2048 [1] [0] [0] [1] [] []

variable [Facts₀]

def dot_S16384x2048_S2048x5504_S16384x5504_1_0_0_1_n_n : DotDims S16384x2048 S2048x5504 S16384x5504 where
  lhsContracting := [1]
  rhsContracting := [0]
  lhsNonContracting := [0]
  rhsNonContracting := [1]
  lhsBatch := []
  rhsBatch := []
  wf := dot_S16384x2048_S2048x5504_S16384x5504_1_0_0_1_n_n_wf
def dot_S16384x5504_S5504x2048_S16384x2048_1_0_0_1_n_n : DotDims S16384x5504 S5504x2048 S16384x2048 where
  lhsContracting := [1]
  rhsContracting := [0]
  lhsNonContracting := [0]
  rhsNonContracting := [1]
  lhsBatch := []
  rhsBatch := []
  wf := dot_S16384x5504_S5504x2048_S16384x2048_1_0_0_1_n_n_wf

class Facts : Prop extends Facts₀ where

variable [Facts]
-- ==== Proof.Spec.lean ====
/-
  The mathematics of the layer, with no program in sight: a SwiGLU expert over the extended reals, the per-token choice
  between two experts, and the same value written as the kernel accumulates it, block by block over the padded hidden
  dimension.
-/
import Idealize.ShloMosaic.PureOps.Ideal
import Idealize.ShloMosaic.PureOps.Ideal.Laws
import Idealize.ShloMosaic.Lib.ValueIdx

noncomputable section

namespace Cert.Swiglu

open Idealize.ShloMosaic

/-- The gated activation of token `t` in hidden column `f`: with `g = Σ_k X t k · A k f` and `u = Σ_k X t k · B k f`,
    the value `(g · σ(g)) · u`, where `σ(g) = 1 / (1 + e^(-g))`. -/
def act {T D N : ℕ} (X : Fin T → Fin D → EReal) (A B : Fin D → Fin N → EReal) (t : Fin T) (f : Fin N) : EReal :=
  ((∑ k : Fin D, X t k * A k f) * Ideal.logistic (∑ k : Fin D, X t k * A k f)) * (∑ k : Fin D, X t k * B k f)

/-- One expert: the activations projected down, `Σ_f act t f · Dn f d`. -/
def expert {T D N E : ℕ} (X : Fin T → Fin D → EReal) (A B : Fin D → Fin N → EReal) (Dn : Fin N → Fin E → EReal)
    (t : Fin T) (d : Fin E) : EReal :=
  ∑ f : Fin N, act X A B t f * Dn f d

/-- The layer: a token whose mask bit is set goes through the second expert, every other token through the first. -/
def moe {T D N E : ℕ} (X : Fin T → Fin D → EReal) (Ug Uu : Fin D → Fin N → EReal) (Ud : Fin N → Fin E → EReal)
    (Gg Gu : Fin D → Fin N → EReal) (Gd : Fin N → Fin E → EReal) (mask : Fin T → BitVec 1) (t : Fin T) (d : Fin E) : EReal :=
  Scalar.select (mask t) (expert X Gg Gu Gd t d) (expert X Ug Uu Ud t d)

/-- Columns 5504 … 5631 appended as zeros. -/
def padCols {D : ℕ} (A : Fin D → Fin 5504 → EReal) : Fin D → Fin 5632 → EReal :=
  fun k f => if h : f.val < 5504 then A k ⟨f.val, h⟩ else 0

/-- Rows 5504 … 5631 appended as zeros. -/
def padRows {E : ℕ} (A : Fin 5504 → Fin E → EReal) : Fin 5632 → Fin E → EReal :=
  fun f d => if h : f.val < 5504 then A ⟨f.val, h⟩ d else 0

/-- Column `f` of block `j` of the padded hidden dimension: `256 j + f`. -/
def col (j : Fin 22) (f : Fin 256) : Fin 5632 := ⟨256 * j.val + f.val, by omega⟩

/-- What block `j` adds to the accumulator at token `t`, output column `d`: the first expert's activations of the
    block weighted by `1 - w t` and projected down, plus the second expert's weighted by `w t` and projected down. -/
def blockTerm {T D E : ℕ} (X : Fin T → Fin D → EReal) (Ug Uu : Fin D → Fin 5632 → EReal) (Ud : Fin 5632 → Fin E → EReal)
    (Gg Gu : Fin D → Fin 5632 → EReal) (Gd : Fin 5632 → Fin E → EReal) (w : Fin T → EReal) (t : Fin T) (d : Fin E)
    (j : Fin 22) : EReal :=
  (∑ f : Fin 256, (act X Ug Uu t (col j f) * (1 - w t)) * Ud (col j f) d)
    + (∑ f : Fin 256, (act X Gg Gu t (col j f) * w t) * Gd (col j f) d)

/-- The same, at a natural number: zero from block 22 on. -/
def blockTermN {T D E : ℕ} (X : Fin T → Fin D → EReal) (Ug Uu : Fin D → Fin 5632 → EReal) (Ud : Fin 5632 → Fin E → EReal)
    (Gg Gu : Fin D → Fin 5632 → EReal) (Gd : Fin 5632 → Fin E → EReal) (w : Fin T → EReal) (t : Fin T) (d : Fin E)
    (j : ℕ) : EReal :=
  if h : j < 22 then blockTerm X Ug Uu Ud Gg Gu Gd w t d ⟨j, h⟩ else 0

/-- The accumulator after the last block: the 22 block terms added up in order. -/
def blocked {T D E : ℕ} (X : Fin T → Fin D → EReal) (Ug Uu : Fin D → Fin 5632 → EReal) (Ud : Fin 5632 → Fin E → EReal)
    (Gg Gu : Fin D → Fin 5632 → EReal) (Gd : Fin 5632 → Fin E → EReal) (w : Fin T → EReal) (t : Fin T) (d : Fin E) : EReal :=
  ∑ j ∈ Finset.range 22, blockTermN X Ug Uu Ud Gg Gu Gd w t d j

/-- A mask bit read as a number: 0 or 1. -/
def maskWeight {T : ℕ} (mask : Fin T → BitVec 1) : Fin T → EReal := fun t => (((mask t).toNat : ℝ) : EReal)

/-- The layer over arrays indexed by shape indices: entry `(t, d)` of the result from the eight argument arrays. -/
def result (x0 : (⟨2, ![16384, 2048]⟩ : Shape).Idx → EReal) (x1 x2 : (⟨2, ![2048, 5504]⟩ : Shape).Idx → EReal)
    (x3 : (⟨2, ![5504, 2048]⟩ : Shape).Idx → EReal) (x4 x5 : (⟨2, ![2048, 5504]⟩ : Shape).Idx → EReal)
    (x6 : (⟨2, ![5504, 2048]⟩ : Shape).Idx → EReal) (x7 : (⟨1, ![16384]⟩ : Shape).Idx → BitVec 1) :
    (⟨2, ![16384, 2048]⟩ : Shape).Idx → EReal :=
  fun i => moe (fun t k => x0 (ValueIdx.ix2 t k)) (fun k f => x1 (ValueIdx.ix2 k f)) (fun k f => x2 (ValueIdx.ix2 k f))
    (fun f d => x3 (ValueIdx.ix2 f d)) (fun k f => x4 (ValueIdx.ix2 k f)) (fun k f => x5 (ValueIdx.ix2 k f))
    (fun f d => x6 (ValueIdx.ix2 f d)) (fun t => x7 (ValueIdx.ix1 t)) (i 0) (i 1)

end Cert.Swiglu

end
-- ==== Proof.RefValue.lean ====
/-
  The reference program, read index by index, is the layer of the specification: each of its two chains is a SwiGLU
  expert (two contractions over the model dimension, the gate passed through g · 1/(1 + e^(-g)), the product projected
  down by a third contraction), and its last stage chooses between the two chains by the token's mask bit.
-/
import proofs.«112127_j13434657702336_2_alg».proof.Proof.Gen.ReferenceIdeal.Read
import proofs.«112127_j13434657702336_2_alg».proof.Proof.Spec
import Idealize.ShloMosaic.Lib.ValueIdx
import Idealize.ShloMosaic.Lib.IdealHost

noncomputable section

namespace Cert.ReferenceIdeal.RefValue

open Cert.ReferenceIdeal Cert.ReferenceIdeal.Read Idealize.ShloMosaic

/-! ## The index maps of the contractions and broadcasts, by coordinates -/

/-- Row `i 0` of the left factor, column `k`. -/
theorem lidx_v0 (i : S16384x5504.Idx) (k : Fin 2048) : lidx_main_v0 i k = ValueIdx.ix2 (i 0) k :=
  funext fun a => by match a with | ⟨0, _⟩ => rfl | ⟨1, _⟩ => rfl
/-- Row `k` of the right factor, column `i 1`. -/
theorem ridx_v0 (i : S16384x5504.Idx) (k : Fin 2048) : ridx_main_v0 i k = ValueIdx.ix2 k (i 1) :=
  funext fun a => by match a with | ⟨0, _⟩ => rfl | ⟨1, _⟩ => rfl
theorem lidx_v2 (i : S16384x5504.Idx) (k : Fin 2048) : lidx_main_v2 i k = ValueIdx.ix2 (i 0) k :=
  funext fun a => by match a with | ⟨0, _⟩ => rfl | ⟨1, _⟩ => rfl
theorem ridx_v2 (i : S16384x5504.Idx) (k : Fin 2048) : ridx_main_v2 i k = ValueIdx.ix2 k (i 1) :=
  funext fun a => by match a with | ⟨0, _⟩ => rfl | ⟨1, _⟩ => rfl
theorem lidx_v5 (i : S16384x5504.Idx) (k : Fin 2048) : lidx_main_v5 i k = ValueIdx.ix2 (i 0) k :=
  funext fun a => by match a with | ⟨0, _⟩ => rfl | ⟨1, _⟩ => rfl
theorem ridx_v5 (i : S16384x5504.Idx) (k : Fin 2048) : ridx_main_v5 i k = ValueIdx.ix2 k (i 1) :=
  funext fun a => by match a with | ⟨0, _⟩ => rfl | ⟨1, _⟩ => rfl
theorem lidx_v7 (i : S16384x5504.Idx) (k : Fin 2048) : lidx_main_v7 i k = ValueIdx.ix2 (i 0) k :=
  funext fun a => by match a with | ⟨0, _⟩ => rfl | ⟨1, _⟩ => rfl
theorem ridx_v7 (i : S16384x5504.Idx) (k : Fin 2048) : ridx_main_v7 i k = ValueIdx.ix2 k (i 1) :=
  funext fun a => by match a with | ⟨0, _⟩ => rfl | ⟨1, _⟩ => rfl
theorem lidx_v4 (i : S16384x2048.Idx) (k : Fin 5504) : lidx_main_v4 i k = ValueIdx.ix2 (i 0) k :=
  funext fun a => by match a with | ⟨0, _⟩ => rfl | ⟨1, _⟩ => rfl
theorem ridx_v4 (i : S16384x2048.Idx) (k : Fin 5504) : ridx_main_v4 i k = ValueIdx.ix2 k (i 1) :=
  funext fun a => by match a with | ⟨0, _⟩ => rfl | ⟨1, _⟩ => rfl
theorem lidx_v9 (i : S16384x2048.Idx) (k : Fin 5504) : lidx_main_v9 i k = ValueIdx.ix2 (i 0) k :=
  funext fun a => by match a with | ⟨0, _⟩ => rfl | ⟨1, _⟩ => rfl
theorem ridx_v9 (i : S16384x2048.Idx) (k : Fin 5504) : ridx_main_v9 i k = ValueIdx.ix2 k (i 1) :=
  funext fun a => by match a with | ⟨0, _⟩ => rfl | ⟨1, _⟩ => rfl
/-- The mask, broadcast along the columns, is read at the token `i 0`. -/
theorem idx_mask (i : S16384x2048.Idx) : idx_main_v10 (idx_main_call2_v0 i) = ValueIdx.ix1 (i 0) :=
  funext fun a => by match a with | ⟨0, _⟩ => rfl

/-! ## The hidden activations -/

/-- The second chain's product before the projection is the gated activation `act` of the token `i 0` in the hidden
    column `i 1`, with the gate and up matrices `x4`, `x5`: the quotient `1 / (1 + e^(-g))` is the logistic function. -/
theorem hidden_second (x0 : (⟨S16384x2048, .f32⟩ : BufTy).Contents (Elt Ideal)) (x4 x5 : (⟨S2048x5504, .f32⟩ : BufTy).Contents (Elt Ideal))
    (i : S16384x5504.Idx) :
    val_main_v3 (F := Ideal) x0 x4 x5 i
      = Cert.Swiglu.act (fun t k => x0 (ValueIdx.ix2 t k)) (fun k f => x4 (ValueIdx.ix2 k f)) (fun k f => x5 (ValueIdx.ix2 k f)) (i 0) (i 1) := by
  rw [val_main_v3_apply, val_main_v1_apply, val_main_call0_v5_apply, val_main_call0_v4_apply, val_main_call0_cst_0_apply,
    val_main_call0_v3_apply, val_main_call0_v2_apply, val_main_call0_cst_apply, val_main_call0_v1_apply, val_main_call0_v0_apply,
    val_main_v0_apply, val_main_v2_apply]
  simp only [lidx_v0, ridx_v0, lidx_v2, ridx_v2, Ideal.mulf_def, Ideal.addf_def, Ideal.hostDivf_def, Ideal.hostUnary_exp_def,
    Ideal.hostNegf_def, Ideal.negf_def, Ideal.ofBits_def, Ideal.ofBits_one_f32]
  rfl

/-- The first chain's product before the projection, the same with the gate and up matrices `x1`, `x2`. -/
theorem hidden_first (x0 : (⟨S16384x2048, .f32⟩ : BufTy).Contents (Elt Ideal)) (x1 x2 : (⟨S2048x5504, .f32⟩ : BufTy).Contents (Elt Ideal))
    (i : S16384x5504.Idx) :
    val_main_v8 (F := Ideal) x0 x1 x2 i
      = Cert.Swiglu.act (fun t k => x0 (ValueIdx.ix2 t k)) (fun k f => x1 (ValueIdx.ix2 k f)) (fun k f => x2 (ValueIdx.ix2 k f)) (i 0) (i 1) := by
  rw [val_main_v8_apply, val_main_v6_apply, val_main_call1_v5_apply, val_main_call1_v4_apply, val_main_call1_cst_0_apply,
    val_main_call1_v3_apply, val_main_call1_v2_apply, val_main_call1_cst_apply, val_main_call1_v1_apply, val_main_call1_v0_apply,
    val_main_v5_apply, val_main_v7_apply]
  simp only [lidx_v5, ridx_v5, lidx_v7, ridx_v7, Ideal.mulf_def, Ideal.addf_def, Ideal.hostDivf_def, Ideal.hostUnary_exp_def,
    Ideal.hostNegf_def, Ideal.negf_def, Ideal.ofBits_def, Ideal.ofBits_one_f32]
  rfl

/-! ## The two experts and the choice between them -/

/-- The second chain is the expert with matrices `x4`, `x5`, `x6`. -/
theorem expert_second (x0 : (⟨S16384x2048, .f32⟩ : BufTy).Contents (Elt Ideal)) (x4 x5 : (⟨S2048x5504, .f32⟩ : BufTy).Contents (Elt Ideal))
    (x6 : (⟨S5504x2048, .f32⟩ : BufTy).Contents (Elt Ideal)) (i : S16384x2048.Idx) :
    val_main_v4 (F := Ideal) x0 x4 x5 x6 i
      = Cert.Swiglu.expert (fun t k => x0 (ValueIdx.ix2 t k)) (fun k f => x4 (ValueIdx.ix2 k f)) (fun k f => x5 (ValueIdx.ix2 k f))
          (fun f d => x6 (ValueIdx.ix2 f d)) (i 0) (i 1) := by
  rw [val_main_v4_apply]
  unfold Cert.Swiglu.expert
  refine Finset.sum_congr rfl fun k _ => ?_
  rw [hidden_second, lidx_v4, ridx_v4]
  rfl

/-- The first chain is the expert with matrices `x1`, `x2`, `x3`. -/
theorem expert_first (x0 : (⟨S16384x2048, .f32⟩ : BufTy).Contents (Elt Ideal)) (x1 x2 : (⟨S2048x5504, .f32⟩ : BufTy).Contents (Elt Ideal))
    (x3 : (⟨S5504x2048, .f32⟩ : BufTy).Contents (Elt Ideal)) (i : S16384x2048.Idx) :
    val_main_v9 (F := Ideal) x0 x1 x2 x3 i
      = Cert.Swiglu.expert (fun t k => x0 (ValueIdx.ix2 t k)) (fun k f => x1 (ValueIdx.ix2 k f)) (fun k f => x2 (ValueIdx.ix2 k f))
          (fun f d => x3 (ValueIdx.ix2 f d)) (i 0) (i 1) := by
  rw [val_main_v9_apply]
  unfold Cert.Swiglu.expert
  refine Finset.sum_congr rfl fun k _ => ?_
  rw [hidden_first, lidx_v9, ridx_v9]
  rfl

/-- The reference program's result is the layer: a token whose mask bit is set takes the second chain's value, every
    other token the first chain's. -/
theorem ref_eq (x0 : (⟨S16384x2048, .f32⟩ : BufTy).Contents (Elt Ideal)) (x1 x2 : (⟨S2048x5504, .f32⟩ : BufTy).Contents (Elt Ideal)) (x3 : (⟨S5504x2048, .f32⟩ : BufTy).Contents (Elt Ideal))
    (x4 x5 : (⟨S2048x5504, .f32⟩ : BufTy).Contents (Elt Ideal)) (x6 : (⟨S5504x2048, .f32⟩ : BufTy).Contents (Elt Ideal)) (x7 : (⟨S16384, .i1⟩ : BufTy).Contents (Elt Ideal)) :
    val_main_v11 (F := Ideal) x0 x1 x2 x3 x4 x5 x6 x7 = Cert.Swiglu.result x0 x1 x2 x3 x4 x5 x6 x7 := by
  funext i
  rw [val_main_v11_apply, val_main_call2_v0_apply, val_main_v10_apply, idx_mask, expert_second, expert_first]
  rfl

end Cert.ReferenceIdeal.RefValue

end
-- ==== Proof.Algebra.lean ====
/-
  The accumulated, block-by-block value over the padded hidden dimension is the layer's value: pure arithmetic of finite
  sums over the extended reals. Only the commutative-monoid structure of `+`, the commutative-monoid-with-zero
  structure of `*` (so `x * 0 = 0` for every `x`, infinite ones included) and `1 - 1 = 0`, `1 - 0 = 1` are used;
  distributivity is never needed.
-/
import proofs.«112127_j13434657702336_2_alg».proof.Proof.Spec
import Idealize.ShloMosaic.Lib.ValueIdx
import Mathlib.Algebra.BigOperators.Fin
import Mathlib.Logic.Equiv.Fin.Basic

noncomputable section

namespace Cert.Swiglu

open Idealize.ShloMosaic

/-! ## Re-indexing the hidden dimension -/

/-- Summing over the 22 blocks and, inside each, over its 256 columns is summing over all 5632 columns:
    `(j, f) ↦ 256 j + f` is a bijection. -/
theorem sum_col (h : Fin 5632 → EReal) :
    ∑ j : Fin 22, ∑ f : Fin 256, h (col j f) = ∑ F : Fin 5632, h F := by
  rw [← Fintype.sum_prod_type']
  refine Fintype.sum_equiv (finProdFinEquiv : Fin 22 × Fin 256 ≃ Fin (22 * 256)) _ _ ?_
  rintro ⟨j, f⟩
  congr 1
  apply Fin.ext
  simp only [col, finProdFinEquiv, Equiv.coe_fn_mk]
  omega

/-- A sum over the 5632 padded columns whose terms vanish from column 5504 on is the sum over the first 5504. -/
theorem sum_trunc_pad (h : Fin 5632 → EReal) (hz : ∀ F : Fin 5632, 5504 ≤ F.val → h F = 0) :
    ∑ F : Fin 5632, h F = ∑ f : Fin 5504, h ⟨f.val, by omega⟩ := by
  have key := Fin.sum_trunc (a := 5504) (b := 128) (f := h)
    (fun j => hz (Fin.natAdd 5504 j) (by simp [Fin.natAdd]))
  rw [key]
  rfl

/-! ## The padded arrays -/

/-- The activation only reads column `f` of its two weight arrays, and a column below 5504 of a padded array is the
    original column. -/
theorem act_padCols {T D : ℕ} (X : Fin T → Fin D → EReal) (A B : Fin D → Fin 5504 → EReal) (t : Fin T)
    (f : Fin 5504) : act X (padCols A) (padCols B) t ⟨f.val, by omega⟩ = act X A B t f := by
  simp only [act, padCols, f.isLt, dite_true, Fin.eta]

/-- A row below 5504 of a row-padded array is the original row. -/
theorem padRows_lt {E : ℕ} (A : Fin 5504 → Fin E → EReal) (f : Fin 5504) (d : Fin E) :
    padRows A ⟨f.val, by omega⟩ d = A f d := by
  simp only [padRows, f.isLt, dite_true, Fin.eta]

/-- A row from 5504 on of a row-padded array is zero. -/
theorem padRows_ge {E : ℕ} (A : Fin 5504 → Fin E → EReal) (F : Fin 5632) (hF : 5504 ≤ F.val) (d : Fin E) :
    padRows A F d = 0 := by
  simp only [padRows, Nat.not_lt.mpr hF, dite_false]

/-- One expert's weighted projection over the padded columns is the same over the original columns: a padding column
    contributes `(…) * 0 = 0`, whatever the activation there. -/
theorem sum_padded {T D E : ℕ} (X : Fin T → Fin D → EReal) (A B : Fin D → Fin 5504 → EReal)
    (Dn : Fin 5504 → Fin E → EReal) (c : EReal) (t : Fin T) (d : Fin E) :
    ∑ F : Fin 5632, (act X (padCols A) (padCols B) t F * c) * padRows Dn F d
      = ∑ f : Fin 5504, (act X A B t f * c) * Dn f d := by
  rw [sum_trunc_pad _ (fun F hF => by rw [padRows_ge Dn F hF d, mul_zero])]
  refine Finset.sum_congr rfl (fun f _ => ?_)
  rw [act_padCols, padRows_lt]

/-! ## The accumulator as two sums over all columns -/

/-- The 22 block terms added up are the first expert's weighted projection over all padded columns plus the second
    expert's. -/
theorem blocked_eq_sums {T D E : ℕ} (X : Fin T → Fin D → EReal) (Ug Uu : Fin D → Fin 5632 → EReal)
    (Ud : Fin 5632 → Fin E → EReal) (Gg Gu : Fin D → Fin 5632 → EReal) (Gd : Fin 5632 → Fin E → EReal)
    (w : Fin T → EReal) (t : Fin T) (d : Fin E) :
    blocked X Ug Uu Ud Gg Gu Gd w t d
      = (∑ F : Fin 5632, (act X Ug Uu t F * (1 - w t)) * Ud F d)
        + (∑ F : Fin 5632, (act X Gg Gu t F * w t) * Gd F d) := by
  unfold blocked
  rw [Finset.sum_range]
  have hN : ∀ j : Fin 22, blockTermN X Ug Uu Ud Gg Gu Gd w t d j.val = blockTerm X Ug Uu Ud Gg Gu Gd w t d j := by
    intro j
    simp only [blockTermN, j.isLt, dite_true, Fin.eta]
  simp only [hN]
  unfold blockTerm
  rw [Finset.sum_add_distrib,
    sum_col (fun F => (act X Ug Uu t F * (1 - w t)) * Ud F d),
    sum_col (fun F => (act X Gg Gu t F * w t) * Gd F d)]

/-! ## The two values of the weight -/

/-- A set mask bit weighs 1. -/
theorem maskWeight_one {T : ℕ} (mask : Fin T → BitVec 1) (t : Fin T) (h : mask t = 1#1) : maskWeight mask t = 1 := by
  simp [maskWeight, h]

/-- A clear mask bit weighs 0. -/
theorem maskWeight_zero {T : ℕ} (mask : Fin T → BitVec 1) (t : Fin T) (h : mask t = 0#1) : maskWeight mask t = 0 := by
  simp [maskWeight, h]

/-- In the extended reals `1 - 1 = 0`: both are finite. -/
theorem one_sub_one : (1 : EReal) - 1 = 0 := by
  rw [← EReal.coe_one, ← EReal.coe_sub, sub_self, EReal.coe_zero]

/-- In the extended reals `1 - 0 = 1`. -/
theorem one_sub_zero : (1 : EReal) - 0 = 1 := sub_zero 1

/-- A projection weighted by 0 is 0: every term is `(a * 0) * u = 0`. -/
theorem sum_weight_zero {N : ℕ} (a u : Fin N → EReal) : ∑ f : Fin N, (a f * 0) * u f = 0 :=
  Finset.sum_eq_zero (fun f _ => by rw [mul_zero, zero_mul])

/-- A projection weighted by 1 is the expert: every term is `(a * 1) * u = a * u`. -/
theorem sum_weight_one {T D N E : ℕ} (X : Fin T → Fin D → EReal) (A B : Fin D → Fin N → EReal)
    (Dn : Fin N → Fin E → EReal) (t : Fin T) (d : Fin E) :
    ∑ f : Fin N, (act X A B t f * 1) * Dn f d = expert X A B Dn t d := by
  simp only [mul_one, expert]

/-! ## The theorem -/

/-- The accumulator over the zero-padded weights, with the mask read as a 0/1 weight, is the layer's value. -/
theorem blocked_eq_moe {T D E : ℕ} (X : Fin T → Fin D → EReal) (Ug Uu : Fin D → Fin 5504 → EReal) (Ud : Fin 5504 → Fin E → EReal)
    (Gg Gu : Fin D → Fin 5504 → EReal) (Gd : Fin 5504 → Fin E → EReal) (mask : Fin T → BitVec 1) (t : Fin T) (d : Fin E) :
    blocked X (padCols Ug) (padCols Uu) (padRows Ud) (padCols Gg) (padCols Gu) (padRows Gd) (maskWeight mask) t d
      = moe X Ug Uu Ud Gg Gu Gd mask t d := by
  rw [blocked_eq_sums, sum_padded, sum_padded]
  unfold moe
  rcases BitVec.eq_zero_or_eq_one (mask t) with h | h
  · rw [maskWeight_zero mask t h, one_sub_zero, sum_weight_zero, sum_weight_one, add_zero, h, ValueIdx.select_zero]
  · rw [maskWeight_one mask t h, one_sub_one, sum_weight_zero, sum_weight_one, zero_add, h, ValueIdx.select_one]

end Cert.Swiglu

end
-- ==== Proof.Pieces.lean ====
/-
  What one grid point leaves behind, as arithmetic. The body keeps a 1024 x 2048 accumulator across the 22 column blocks
  of a token tile. At the first block it stores zeros and then the step over them; at every later block it stores the
  step over what the block before left; at the last block it also copies the accumulator to the output block. The step
  is one pure function of the point's input blocks: the accumulator plus the two down-projections of the block's masked
  activations.
-/
import proofs.«112127_j13434657702336_2_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.ShloMosaic.Tactic Idealize.SL.Sem
open Idealize.ShloMosaic.Pipeline (Dat)

namespace Cert.KernelIdeal.Pieces
open Cert.KernelIdeal Cert.KernelIdeal.Gen
variable {F : FTy → Type} [FloatOps F]

theorem hz : (![0, 0] : Fin 2 → Nat) = fun _ => 0 := funext fun a => by fin_cases a <;> rfl

/-- The step: the accumulator `acc` plus the block's contribution, from the token tile `x0`, the mask column `x7`, the
    first expert's blocks `x1 x2 x3` (gate, up, down) and the second expert's `x4 x5 x6`. -/
abbrev step (x0 : Vec F S1024x2048 .bf16) (x1 x2 : Vec F S2048x256 .bf16) (x3 : Vec F S256x2048 .bf16)
    (x4 x5 : Vec F S2048x256 .bf16) (x6 : Vec F S256x2048 .bf16) (x7 : Vec F S1024x1 .f32) (acc : Vec F S1024x2048 .f32) :
    Vec F S1024x2048 .f32 :=
  k0_pay1 (k0_pay5 x0 x7 x1 x2) (k0_pay6 x0 x7 x4 x5) acc x3 x6

/-- At a tile's first block the accumulator ends at the step over zeros. -/
theorem scratch_A (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x2048 .bf16) (harg8 : arg8.IsWhole) (arg9 : Memref sig .tc .vmem S1024x1 .f32) (harg9 : arg9.IsWhole) (arg10 : Memref sig .tc .vmem S1024x2048 .f32) (harg10 : arg10.IsWhole) (arg11 : Memref sig .tc .vmem S1024x2048 .f32) (harg11 : arg11.IsWhole) (hc0 : cond0_0 i) (hc1 : ¬cond0_1 i) (x0 : Vec F S1024x2048 .bf16) (x1 : Vec F S2048x256 .bf16) (x2 : Vec F S2048x256 .bf16) (x3 : Vec F S256x2048 .bf16) (x4 : Vec F S2048x256 .bf16) (x5 : Vec F S2048x256 .bf16) (x6 : Vec F S256x2048 .bf16) (x7 : Vec F S1024x1 .f32) :
    sout0_A_0 c i arg2 harg2 arg3 harg3 arg4 harg4 arg5 harg5 arg6 harg6 arg7 harg7 arg8 harg8 arg9 harg9 arg10 harg10 arg11 harg11 hc0 hc1 x0 x1 x2 x3 x4 x5 x6 x7 = step x0 x1 x2 x3 x4 x5 x6 x7 k0_pay2 := by
  unfold sout0_A_0
  rw [View.read_writes_eq_canon _ _ _ (scover0_A_0 c i arg2 harg2 arg3 harg3 arg4 harg4 arg5 harg5 arg6 harg6 arg7 harg7 arg8 harg8 arg9 harg9 arg10 harg10 arg11 harg11 hc0 hc1 x0 x1 x2 x3 x4 x5 x6 x7)]
  unfold kernelRun0_A
  dsimp only
  sl_unfold_words
  rw [View.canon_cons_unit_zero (S := S1024x2048) hz, View.readCov_unit_zero (S := S1024x2048) _ hz]
  simp only [View.readAt_eq_ld, harg2.read_unread, harg3.read_unread, harg4.read_unread, harg5.read_unread, harg6.read_unread, harg7.read_unread, harg8.read_unread, harg9.read_unread, harg11.read_unread, View.ld_unit_zero (S := S1024x2048) hz, View.ld_unit_zero (S := S2048x256) hz, View.ld_unit_zero (S := S256x2048) hz, View.ld_unit_zero (S := S1024x1) hz]

/-- At a middle block the accumulator ends at the step over what it held. -/
theorem scratch_B (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x2048 .bf16) (harg8 : arg8.IsWhole) (arg9 : Memref sig .tc .vmem S1024x1 .f32) (harg9 : arg9.IsWhole) (arg10 : Memref sig .tc .vmem S1024x2048 .f32) (harg10 : arg10.IsWhole) (arg11 : Memref sig .tc .vmem S1024x2048 .f32) (harg11 : arg11.IsWhole) (hc0 : ¬cond0_0 i) (hc1 : ¬cond0_1 i) (x0 : Vec F S1024x2048 .bf16) (x1 : Vec F S2048x256 .bf16) (x2 : Vec F S2048x256 .bf16) (x3 : Vec F S256x2048 .bf16) (x4 : Vec F S2048x256 .bf16) (x5 : Vec F S2048x256 .bf16) (x6 : Vec F S256x2048 .bf16) (x7 : Vec F S1024x1 .f32) (xs0 : Vec F S1024x2048 .f32) :
    sout0_B_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_B_0
  rw [View.read_writes_eq_canon _ _ _ (scover0_B_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_B
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S1024x2048) hz, View.ld_unit_zero (S := S2048x256) hz, View.ld_unit_zero (S := S256x2048) hz, View.ld_unit_zero (S := S1024x1) hz]

/-- At a tile's last block likewise, -/
theorem scratch_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x2048 .bf16) (harg8 : arg8.IsWhole) (arg9 : Memref sig .tc .vmem S1024x1 .f32) (harg9 : arg9.IsWhole) (arg10 : Memref sig .tc .vmem S1024x2048 .f32) (harg10 : arg10.IsWhole) (arg11 : Memref sig .tc .vmem S1024x2048 .f32) (harg11 : arg11.IsWhole) (hc0 : ¬cond0_0 i) (hc1 : cond0_1 i) (x0 : Vec F S1024x2048 .bf16) (x1 : Vec F S2048x256 .bf16) (x2 : Vec F S2048x256 .bf16) (x3 : Vec F S256x2048 .bf16) (x4 : Vec F S2048x256 .bf16) (x5 : Vec F S2048x256 .bf16) (x6 : Vec F S256x2048 .bf16) (x7 : Vec F S1024x1 .f32) (xs0 : Vec F S1024x2048 .f32) :
    sout0_C_0 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold sout0_C_0
  rw [View.read_writes_eq_canon _ _ _ (scover0_C_0 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz]
  simp only [View.readAt_eq_ld, harg2.read_unread, harg3.read_unread, harg4.read_unread, harg5.read_unread, harg6.read_unread, harg7.read_unread, harg8.read_unread, harg9.read_unread, harg11.read_unread, View.ld_unit_zero (S := S1024x2048) hz, View.ld_unit_zero (S := S2048x256) hz, View.ld_unit_zero (S := S256x2048) hz, View.ld_unit_zero (S := S1024x1) hz]

/-- and the output block receives that same value. -/
theorem out_C (c : Dev nD) (i : grid0.Coords) (arg2 : Memref sig .tc .vmem S1024x2048 .bf16) (harg2 : arg2.IsWhole) (arg3 : Memref sig .tc .vmem S2048x256 .bf16) (harg3 : arg3.IsWhole) (arg4 : Memref sig .tc .vmem S2048x256 .bf16) (harg4 : arg4.IsWhole) (arg5 : Memref sig .tc .vmem S256x2048 .bf16) (harg5 : arg5.IsWhole) (arg6 : Memref sig .tc .vmem S2048x256 .bf16) (harg6 : arg6.IsWhole) (arg7 : Memref sig .tc .vmem S2048x256 .bf16) (harg7 : arg7.IsWhole) (arg8 : Memref sig .tc .vmem S256x2048 .bf16) (harg8 : arg8.IsWhole) (arg9 : Memref sig .tc .vmem S1024x1 .f32) (harg9 : arg9.IsWhole) (arg10 : Memref sig .tc .vmem S1024x2048 .f32) (harg10 : arg10.IsWhole) (arg11 : Memref sig .tc .vmem S1024x2048 .f32) (harg11 : arg11.IsWhole) (hc0 : ¬cond0_0 i) (hc1 : cond0_1 i) (x0 : Vec F S1024x2048 .bf16) (x1 : Vec F S2048x256 .bf16) (x2 : Vec F S2048x256 .bf16) (x3 : Vec F S256x2048 .bf16) (x4 : Vec F S2048x256 .bf16) (x5 : Vec F S2048x256 .bf16) (x6 : Vec F S256x2048 .bf16) (x7 : Vec F S1024x1 .f32) (xs0 : Vec F S1024x2048 .f32) :
    out0_C_8 c i arg2 harg2 arg3 harg3 arg4 harg4 arg5 harg5 arg6 harg6 arg7 harg7 arg8 harg8 arg9 harg9 arg10 harg10 arg11 harg11 hc0 hc1 x0 x1 x2 x3 x4 x5 x6 x7 xs0 = step x0 x1 x2 x3 x4 x5 x6 x7 xs0 := by
  unfold out0_C_8
  rw [View.read_writes_eq_canon _ _ _ (cover0_C_8 c i arg2 harg2 arg3 harg3 arg4 harg4 arg5 harg5 arg6 harg6 arg7 harg7 arg8 harg8 arg9 harg9 arg10 harg10 arg11 harg11 hc0 hc1 x0 x1 x2 x3 x4 x5 x6 x7 xs0)]
  unfold kernelRun0_C
  dsimp only
  sl_unfold_words
  rw [View.canon_unit_zero hz, View.readCov_unit_zero (S := S1024x2048) _ hz]
  simp only [View.readAt_eq_ld, harg2.read_unread, harg3.read_unread, harg4.read_unread, harg5.read_unread, harg6.read_unread, harg7.read_unread, harg8.read_unread, harg9.read_unread, harg11.read_unread, View.ld_unit_zero (S := S1024x2048) hz, View.ld_unit_zero (S := S2048x256) hz, View.ld_unit_zero (S := S256x2048) hz, View.ld_unit_zero (S := S1024x1) hz]

end Cert.KernelIdeal.Pieces
end
-- ==== Proof.Host.lean ====
/-
  What the region finds in front of it. The host casts the tokens to bf16, pads each weight array with zeros from 5504
  to 5632 along the hidden dimension and casts it, and turns the mask into a column of floats; the region's eight input
  windows then cut these arrays into blocks: the token tile and the mask column by the tile index t / 22, the gate and up
  weights by column block t % 22, the down weights by row block t % 22. A block read at a local index is its array read
  at the index offset by the block's position.
-/
import proofs.«112127_j13434657702336_2_alg».proof.Proof.Gen.KernelIdeal.Frame
import Idealize.ShloMosaic.Lib.Pipeline.Value
import Idealize.ShloMosaic.Lib.Tactic
import Idealize.ShloMosaic.Lib.StableHlo.Run
import Idealize.ShloMosaic.Lib.ValueIdx
set_option maxRecDepth 16384

noncomputable section

open Idealize.ShloMosaic Idealize.ShloMosaic.TcCoe Idealize.ShloMosaic.Tactic Idealize.SL.Sem
open Idealize.ShloMosaic.Pipeline (Dat)

namespace Cert.KernelIdeal.Host
open Cert.KernelIdeal Cert.KernelIdeal.Gen Idealize.ShloMosaic.StableHlo Idealize.ShloMosaic.ValueIdx
variable {F : FTy → Type} [FloatOps F]
variable (m : (ℓ : Loc nD τ sig) → Buf (Elt F) ℓ)

/-! ## The arrays the windows stage, as the host operations leave them -/

/-- The tokens, cast. -/
theorem V_tokens (c : Dev nD) : (V m c main_v0 : S16384x2048.Idx → Elt F .bf16)
    = (truncf .bf16 · bitsLt_bf16_f32) (m ((c : Thread nD τ).loc main_arg0)) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The first expert's gate weights, padded and cast. -/
theorem V_gate1 (c : Dev nD) : (V m c main_v2 : S2048x5632.Idx → Elt F .bf16)
    = (truncf .bf16 · bitsLt_bf16_f32) (pad S2048x5632 ![0, 0] ![0, 128] ![0, 0] (m ((c : Thread nD τ).loc main_arg1)) (sitofp .f32 (constantI S_ 32 0#32) : FVec F S_ .f32) pads_S2048x5504_S2048x5632_000_01280 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The first expert's up weights, padded and cast. -/
theorem V_up1 (c : Dev nD) : (V m c main_v4 : S2048x5632.Idx → Elt F .bf16)
    = (truncf .bf16 · bitsLt_bf16_f32) (pad S2048x5632 ![0, 0] ![0, 128] ![0, 0] (m ((c : Thread nD τ).loc main_arg2)) (sitofp .f32 (constantI S_ 32 0#32) : FVec F S_ .f32) pads_S2048x5504_S2048x5632_000_01280 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The first expert's down weights, padded and cast. -/
theorem V_down1 (c : Dev nD) : (V m c main_v6 : S5632x2048.Idx → Elt F .bf16)
    = (truncf .bf16 · bitsLt_bf16_f32) (pad S5632x2048 ![0, 0] ![128, 0] ![0, 0] (m ((c : Thread nD τ).loc main_arg3)) (sitofp .f32 (constantI S_ 32 0#32) : FVec F S_ .f32) pads_S5504x2048_S5632x2048_01280_000 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The second expert's gate weights, padded and cast. -/
theorem V_gate2 (c : Dev nD) : (V m c main_v8 : S2048x5632.Idx → Elt F .bf16)
    = (truncf .bf16 · bitsLt_bf16_f32) (pad S2048x5632 ![0, 0] ![0, 128] ![0, 0] (m ((c : Thread nD τ).loc main_arg4)) (sitofp .f32 (constantI S_ 32 0#32) : FVec F S_ .f32) pads_S2048x5504_S2048x5632_000_01280 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The second expert's up weights, padded and cast. -/
theorem V_up2 (c : Dev nD) : (V m c main_v10 : S2048x5632.Idx → Elt F .bf16)
    = (truncf .bf16 · bitsLt_bf16_f32) (pad S2048x5632 ![0, 0] ![0, 128] ![0, 0] (m ((c : Thread nD τ).loc main_arg5)) (sitofp .f32 (constantI S_ 32 0#32) : FVec F S_ .f32) pads_S2048x5504_S2048x5632_000_01280 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The second expert's down weights, padded and cast. -/
theorem V_down2 (c : Dev nD) : (V m c main_v12 : S5632x2048.Idx → Elt F .bf16)
    = (truncf .bf16 · bitsLt_bf16_f32) (pad S5632x2048 ![0, 0] ![128, 0] ![0, 0] (m ((c : Thread nD τ).loc main_arg6)) (sitofp .f32 (constantI S_ 32 0#32) : FVec F S_ .f32) pads_S5504x2048_S5632x2048_01280_000 h_S_) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-- The mask as a column of floats. -/
theorem V_mask (c : Dev nD) : (V m c main_v14 : S16384x1.Idx → Elt F .f32)
    = broadcastInDim S16384x1 ![0] bcast_S16384_S16384x1_0 (uitofp .f32 (m ((c : Thread nD τ).loc main_arg7)) : FVec F S16384 .f32) := by
  dsimp only [V]
  simp only [hostOps0, hostOps0_1, hostOps0_2, hostOps0_3, hostOps0_4, hostOps0_5, hostOps0_6, hostOps0_7, hostOps0_8, hostOps0_9, hostOps0_10, hostOps0_11, hostOps0_12, List.flatten_cons, List.flatten_nil, List.append_nil, List.cons_append, List.nil_append]
  after_results <;> rfl

/-! ## Where each window's block sits at point `t` -/

theorem index0 : ∀ t : Fin cfg0.N, win0_0.index t 0 = t.val / 22 ∧ win0_0.index t 1 = 0 :=
  (by decide +kernel : ∀ t : Fin grid0.N, win0_0.index t 0 = t.val / 22 ∧ win0_0.index t 1 = 0)

theorem iblk0_at (c : Dev nD) (t : Fin cfg0.N) (y : S1024x2048.Idx) (i : S16384x2048.Idx)
    (h0 : (i 0).val = 1024 * (t.val / 22) + (y 0).val) (h1 : (i 1).val = (y 1).val) :
    (iblk m c 0 t : Vec F S1024x2048 .bf16) y = V m c main_v0 i := by
  unfold iblk
  rw [View.read_apply]
  show V m c main_v0 _ = V m c main_v0 i
  refine congrArg _ (funext fun a => Fin.ext ?_)
  match a with
  | ⟨0, _⟩ => show win0_0.index t 0 * 1024 + 1 * (y 0).val = (i 0).val; rw [(index0 t).1, h0]; omega
  | ⟨1, _⟩ => show win0_0.index t 1 * 2048 + 1 * (y 1).val = (i 1).val; rw [(index0 t).2, h1]; omega

theorem index1 : ∀ t : Fin cfg0.N, win0_1.index t 0 = 0 ∧ win0_1.index t 1 = t.val % 22 :=
  (by decide +kernel : ∀ t : Fin grid0.N, win0_1.index t 0 = 0 ∧ win0_1.index t 1 = t.val % 22)

theorem iblk1_at (c : Dev nD) (t : Fin cfg0.N) (y : S2048x256.Idx) (i : S2048x5632.Idx)
    (h0 : (i 0).val = (y 0).val) (h1 : (i 1).val = 256 * (t.val % 22) + (y 1).val) :
    (iblk m c 1 t : Vec F S2048x256 .bf16) y = V m c main_v2 i := by
  unfold iblk
  rw [View.read_apply]
  show V m c main_v2 _ = V m c main_v2 i
  refine congrArg _ (funext fun a => Fin.ext ?_)
  match a with
  | ⟨0, _⟩ => show win0_1.index t 0 * 2048 + 1 * (y 0).val = (i 0).val; rw [(index1 t).1, h0]; omega
  | ⟨1, _⟩ => show win0_1.index t 1 * 256 + 1 * (y 1).val = (i 1).val; rw [(index1 t).2, h1]; omega

theorem index2 : ∀ t : Fin cfg0.N, win0_2.index t 0 = 0 ∧ win0_2.index t 1 = t.val % 22 :=
  (by decide +kernel : ∀ t : Fin grid0.N, win0_2.index t 0 = 0 ∧ win0_2.index t 1 = t.val % 22)

theorem iblk2_at (c : Dev nD) (t : Fin cfg0.N) (y : S2048x256.Idx) (i : S2048x5632.Idx)
    (h0 : (i 0).val = (y 0).val) (h1 : (i 1).val = 256 * (t.val % 22) + (y 1).val) :
    (iblk m c 2 t : Vec F S2048x256 .bf16) y = V m c main_v4 i := by
  unfold iblk
  rw [View.read_apply]
  show V m c main_v4 _ = V m c main_v4 i
  refine congrArg _ (funext fun a => Fin.ext ?_)
  match a with
  | ⟨0, _⟩ => show win0_2.index t 0 * 2048 + 1 * (y 0).val = (i 0).val; rw [(index2 t).1, h0]; omega
  | ⟨1, _⟩ => show win0_2.index t 1 * 256 + 1 * (y 1).val = (i 1).val; rw [(index2 t).2, h1]; omega

theorem index3 : ∀ t : Fin cfg0.N, win0_3.index t 0 = t.val % 22 ∧ win0_3.index t 1 = 0 :=
  (by decide +kernel : ∀ t : Fin grid0.N, win0_3.index t 0 = t.val % 22 ∧ win0_3.index t 1 = 0)

theorem iblk3_at (c : Dev nD) (t : Fin cfg0.N) (y : S256x2048.Idx) (i : S5632x2048.Idx)
    (h0 : (i 0).val = 256 * (t.val % 22) + (y 0).val) (h1 : (i 1).val = (y 1).val) :
    (iblk m c 3 t : Vec F S256x2048 .bf16) y = V m c main_v6 i := by
  unfold iblk
  rw [View.read_apply]
  show V m c main_v6 _ = V m c main_v6 i
  refine congrArg _ (funext fun a => Fin.ext ?_)
  match a with
  | ⟨0, _⟩ => show win0_3.index t 0 * 256 + 1 * (y 0).val = (i 0).val; rw [(index3 t).1, h0]; omega
  | ⟨1, _⟩ => show win0_3.index t 1 * 2048 + 1 * (y 1).val = (i 1).val; rw [(index3 t).2, h1]; omega

theorem index4 : ∀ t : Fin cfg0.N, win0_4.index t 0 = 0 ∧ win0_4.index t 1 = t.val % 22 :=
  (by decide +kernel : ∀ t : Fin grid0.N, win0_4.index t 0 = 0 ∧ win0_4.index t 1 = t.val % 22)

theorem iblk4_at (c : Dev nD) (t : Fin cfg0.N) (y : S2048x256.Idx) (i : S2048x5632.Idx)
    (h0 : (i 0).val = (y 0).val) (h1 : (i 1).val = 256 * (t.val % 22) + (y 1).val) :
    (iblk m c 4 t : Vec F S2048x256 .bf16) y = V m c main_v8 i := by
  unfold iblk
  rw [View.read_apply]
  show V m c main_v8 _ = V m c main_v8 i
  refine congrArg _ (funext fun a => Fin.ext ?_)
  match a with
  | ⟨0, _⟩ => show win0_4.index t 0 * 2048 + 1 * (y 0).val = (i 0).val; rw [(index4 t).1, h0]; omega
  | ⟨1, _⟩ => show win0_4.index t 1 * 256 + 1 * (y 1).val = (i 1).val; rw [(index4 t).2, h1]; omega

theorem index5 : ∀ t : Fin cfg0.N, win0_5.index t 0 = 0 ∧ win0_5.index t 1 = t.val % 22 :=
  (by decide +kernel : ∀ t : Fin grid0.N, win0_5.index t 0 = 0 ∧ win0_5.index t 1 = t.val % 22)

theorem iblk5_at (c : Dev nD) (t : Fin cfg0.N) (y : S2048x256.Idx) (i : S2048x5632.Idx)
    (h0 : (i 0).val = (y 0).val) (h1 : (i 1).val = 256 * (t.val % 22) + (y 1).val) :
    (iblk m c 5 t : Vec F S2048x256 .bf16) y = V m c main_v10 i := by
  unfold iblk
  rw [View.read_apply]
  show V m c main_v10 _ = V m c main_v10 i
  refine congrArg _ (funext fun a => Fin.ext ?_)
  match a with
  | ⟨0, _⟩ => show win0_5.index t 0 * 2048 + 1 * (y 0).val = (i 0).val; rw [(index5 t).1, h0]; omega
  | ⟨1, _⟩ => show win0_5.index t 1 * 256 + 1 * (y 1).val = (i 1).val; rw [(index5 t).2, h1]; omega

theorem index6 : ∀ t : Fin cfg0.N, win0_6.index t 0 = t.val % 22 ∧ win0_6.index t 1 = 0 :=
  (by decide +kernel : ∀ t : Fin grid0.N, win0_6.index t 0 = t.val % 22 ∧ win0_6.index t 1 = 0)

theorem iblk6_at (c : Dev nD) (t : Fin cfg0.N) (y : S256x2048.Idx) (i : S5632x2048.Idx)
    (h0 : (i 0).val = 256 * (t.val % 22) + (y 0).val) (h1 : (i 1).val = (y 1).val) :
    (iblk m c 6 t : Vec F S256x2048 .bf16) y = V m c main_v12 i := by
  unfold iblk
  rw [View.read_apply]
  show V m c main_v12 _ = V m c main_v12 i
  refine congrArg _ (funext fun a => Fin.ext ?_)
  match a with
  | ⟨0, _⟩ => show win0_6.index t 0 * 256 + 1 * (y 0).val = (i 0).val; rw [(index6 t).1, h0]; omega
  | ⟨1, _⟩ => show win0_6.index t 1 * 2048 + 1 * (y 1).val = (i 1).val; rw [(index6 t).2, h1]; omega

theorem index7 : ∀ t : Fin cfg0.N, win0_7.index t 0 = t.val / 22 ∧ win0_7.index t 1 = 0 :=
  (by decide +kernel : ∀ t : Fin grid0.N, win0_7.index t 0 = t.val / 22 ∧ win0_7.index t 1 = 0)

theorem iblk7_at (c : Dev nD) (t : Fin cfg0.N) (y : S1024x1.Idx) (i : S16384x1.Idx)
    (h0 : (i 0).val = 1024 * (t.val / 22) + (y 0).val) (h1 : (i 1).val = (y 1).val) :
    (iblk m c 7 t : Vec F S1024x1 .f32) y = V m c main_v14 i := by
  unfold iblk
  rw [View.read_apply]
  show V m c main_v14 _ = V m c main_v14 i
  refine congrArg _ (funext fun a => Fin.ext ?_)
  match a with
  | ⟨0, _⟩ => show win0_7.index t 0 * 1024 + 1 * (y 0).val = (i 0).val; rw [(index7 t).1, h0]; omega
  | ⟨1, _⟩ => show win0_7.index t 1 * 1 + 1 * (y 1).val = (i 1).val; rw [(index7 t).2, h1]; omega

end Cert.KernelIdeal.Host
end
-- ==== Proof.HostValue.lean ====
/-
  The operations the program performs in front of its one region, each read at an index over ideal values: the cast
  to the 16-bit format changes no ideal value; padding the hidden dimension from 5504 to 5632 gives the original entry
  below 5504 and the padding value, the integer 0 converted, which is 0, from there on; and the mask bit converted to
  a number and given a unit axis is the bit's weight, 0 or 1.
-/
import proofs.«112127_j13434657702336_2_alg».proof.Proof.Gen.KernelIdeal
import proofs.«112127_j13434657702336_2_alg».proof.Proof.Spec
import Idealize.ShloMosaic.Lib.KernelVsHost
import Idealize.ShloMosaic.Lib.ValueIdx
import Idealize.ShloMosaic.Lib.Pipeline.Value
import Idealize.ShloMosaic.Lib.IdealHost

noncomputable section

namespace Cert.KernelIdeal.HostValue

open Cert.KernelIdeal Cert.KernelIdeal.Gen Idealize.ShloMosaic Idealize.ShloMosaic.ValueIdx Cert.Swiglu

/-! ## The cast and the padding value -/

/-- The cast to the 16-bit format is the identity on ideal values, entry by entry. -/
theorem cast_apply {s : Shape} (x : FVec Ideal s .f32) (i : s.Idx) :
    (truncf .bf16 · bitsLt_bf16_f32) x i = x i := rfl

/-- The padding value: the integer constant 0, converted, is the number 0. -/
theorem padValue_apply (i : S_.Idx) : (sitofp .f32 (constantI S_ 32 0#32) : FVec Ideal S_ .f32) i = 0 := by
  show (((0#32 : BitVec 32).toInt : ℝ) : EReal) = 0
  simp

/-! ## The padded weights -/

/-- An up-projection weight array padded along its second axis and cast, at row `k` and column `f`: the original
    entry when `f < 5504`, zero otherwise. -/
theorem padded_cols_apply (x : FVec Ideal S2048x5504 .f32) (k : Fin 2048) (f : Fin 5632) :
    (truncf .bf16 · bitsLt_bf16_f32) (pad S2048x5632 ![0, 0] ![0, 128] ![0, 0] x (sitofp .f32 (constantI S_ 32 0#32) : FVec Ideal S_ .f32) pads_S2048x5504_S2048x5632_000_01280 h_S_) (ix2 k f)
      = padCols (fun k f => x (ix2 k f)) k f := by
  rw [cast_apply]
  by_cases h : f.val < 5504
  · rw [pad_apply_of_inside ![0, 0] ![0, 128] ![0, 0] x _ pads_S2048x5504_S2048x5632_000_01280 h_S_ (ix2 k f)
      (ix2 k ⟨f.val, h⟩) (fun a => by
        match a with
        | ⟨0, _⟩ => show k.val = 0 + k.val * (0 + 1); omega
        | ⟨1, _⟩ => show f.val = 0 + f.val * (0 + 1); omega)]
    simp only [padCols, dif_pos h]
  · rw [pad_apply_of_not_inside ![0, 0] ![0, 128] ![0, 0] x _ pads_S2048x5504_S2048x5632_000_01280 h_S_ (ix2 k f) 1
      (fun hin => h (by
        have h3 : (f.val - 0) / (0 + 1) < 5504 := hin.2.2
        omega)), padValue_apply]
    simp only [padCols, dif_neg h]

/-- A down-projection weight array padded along its first axis and cast, at row `f` and column `d`: the original
    entry when `f < 5504`, zero otherwise. -/
theorem padded_rows_apply (x : FVec Ideal S5504x2048 .f32) (f : Fin 5632) (d : Fin 2048) :
    (truncf .bf16 · bitsLt_bf16_f32) (pad S5632x2048 ![0, 0] ![128, 0] ![0, 0] x (sitofp .f32 (constantI S_ 32 0#32) : FVec Ideal S_ .f32) pads_S5504x2048_S5632x2048_01280_000 h_S_) (ix2 f d)
      = padRows (fun f d => x (ix2 f d)) f d := by
  rw [cast_apply]
  by_cases h : f.val < 5504
  · rw [pad_apply_of_inside ![0, 0] ![128, 0] ![0, 0] x _ pads_S5504x2048_S5632x2048_01280_000 h_S_ (ix2 f d)
      (ix2 ⟨f.val, h⟩ d) (fun a => by
        match a with
        | ⟨0, _⟩ => show f.val = 0 + f.val * (0 + 1); omega
        | ⟨1, _⟩ => show d.val = 0 + d.val * (0 + 1); omega)]
    simp only [padRows, dif_pos h]
  · rw [pad_apply_of_not_inside ![0, 0] ![128, 0] ![0, 0] x _ pads_S5504x2048_S5632x2048_01280_000 h_S_ (ix2 f d) 0
      (fun hin => h (by
        have h3 : (f.val - 0) / (0 + 1) < 5504 := hin.2.2
        omega)), padValue_apply]
    simp only [padRows, dif_neg h]

/-! ## The tokens and the mask -/

/-- The token array cast: unchanged. -/
theorem tokens_apply (x : FVec Ideal S16384x2048 .f32) (t : Fin 16384) (k : Fin 2048) :
    (truncf .bf16 · bitsLt_bf16_f32) x (ix2 t k) = x (ix2 t k) := rfl

/-- The mask converted to numbers and given a unit second axis, at token `t`: the weight of `t`'s bit. -/
theorem mask_apply (x : IVec S16384 1) (t : Fin 16384) :
    broadcastInDim S16384x1 ![0] bcast_S16384_S16384x1_0 (uitofp .f32 x : FVec Ideal S16384 .f32) (ix2 t (0 : Fin 1)) = maskWeight (fun t => x (ix1 t)) t := by
  rw [broadcastInDim_apply ![0] bcast_S16384_S16384x1_0 _ (ix2 t (0 : Fin 1)) (ix1 t) (fun a => by
    match a with
    | ⟨0, _⟩ => show t.val = if (16384 : ℕ) = 1 then 0 else t.val; rw [if_neg (by omega)])]
  rfl

end Cert.KernelIdeal.HostValue

end
-- ==== Proof.Payloads.lean ====
/- The kernel body's arithmetic read at one index, at the ideal values (extended reals).

   Each payload of the kernel's skeleton is a composition of pointwise operations, shape casts to the
   same shape, a column broadcast [1024,1] → [1024,256] and matrix products into a zero accumulator.
   Read at an index (r, c) these become: products and sums of extended reals, the operand itself, the
   column's entry in row r, and the plain sum over the contracted coordinate. -/
import proofs.«112127_j13434657702336_2_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import Idealize.ShloMosaic.Lib.IdealHost

noncomputable section

open scoped BigOperators

namespace Cert.KernelIdeal.Pay

open Cert.KernelIdeal Cert.KernelIdeal.Gen Idealize.ShloMosaic Idealize.ShloMosaic.ValueIdx

/-! ## The two matrix products at an index -/

/-- The first operand index of the [1024,2048] × [2048,256] product at output (r, c) keeps the row r on its free axis. -/
theorem matmul_gate_lhs_0 (i : S1024x256.Idx) (q : dot_S1024x2048_S2048x256_S1024x256_1_0_0_1_n_n.contr.Idx) :
    (dot_S1024x2048_S2048x256_S1024x256_1_0_0_1_n_n.lhsIdx i q 0).val = (i 0).val := by
  unfold DotDims.lhsIdx
  rw [dif_neg (show ¬(0 : Fin S1024x2048.rank) ∈ dot_S1024x2048_S2048x256_S1024x256_1_0_0_1_n_n.lhsBatch by decide), dif_pos (show (0 : Fin S1024x2048.rank) ∈ dot_S1024x2048_S2048x256_S1024x256_1_0_0_1_n_n.lhsNonContracting by decide)]
  rfl
/-- … and carries the contraction coordinate on its second axis. -/
theorem matmul_gate_lhs_1 (i : S1024x256.Idx) (q : dot_S1024x2048_S2048x256_S1024x256_1_0_0_1_n_n.contr.Idx) :
    (dot_S1024x2048_S2048x256_S1024x256_1_0_0_1_n_n.lhsIdx i q 1).val = (q ⟨0, by decide⟩).val :=
  dot_S1024x2048_S2048x256_S1024x256_1_0_0_1_n_n.lhsIdx_val_of_single rfl i q
/-- The second operand index carries the contraction coordinate on its first axis … -/
theorem matmul_gate_rhs_0 (i : S1024x256.Idx) (q : dot_S1024x2048_S2048x256_S1024x256_1_0_0_1_n_n.contr.Idx) :
    (dot_S1024x2048_S2048x256_S1024x256_1_0_0_1_n_n.rhsIdx i q 0).val = (q ⟨0, by decide⟩).val :=
  dot_S1024x2048_S2048x256_S1024x256_1_0_0_1_n_n.rhsIdx_val_of_single rfl i q
/-- … and keeps the column c on its free axis. -/
theorem matmul_gate_rhs_1 (i : S1024x256.Idx) (q : dot_S1024x2048_S2048x256_S1024x256_1_0_0_1_n_n.contr.Idx) :
    (dot_S1024x2048_S2048x256_S1024x256_1_0_0_1_n_n.rhsIdx i q 1).val = (i 1).val := by
  unfold DotDims.rhsIdx
  rw [dif_neg (show ¬(1 : Fin S2048x256.rank) ∈ dot_S1024x2048_S2048x256_S1024x256_1_0_0_1_n_n.rhsBatch by decide), dif_pos (show (1 : Fin S2048x256.rank) ∈ dot_S1024x2048_S2048x256_S1024x256_1_0_0_1_n_n.rhsNonContracting by decide)]
  rfl

/-- The [1024,2048] × [2048,256] product into the zero accumulator, read at (r, c), is the plain sum
    `∑ k, a (r, k) * b (k, c)` over the 2048 contracted coordinates. -/
theorem matmul_gate (a : FVec Ideal S1024x2048 .bf16) (b : FVec Ideal S2048x256 .bf16) (r : Fin 1024) (c : Fin 256) :
    matmul (F := Ideal) dot_S1024x2048_S2048x256_S1024x256_1_0_0_1_n_n none a b (constant (F := Ideal) S1024x256 .f32 0x00000000#32) (ix2 r c)
      = ∑ k : Fin 2048, a (ix2 r k) * b (ix2 k c) := by
  show FloatOps.matmul dot_S1024x2048_S2048x256_S1024x256_1_0_0_1_n_n none a b (constant (F := Ideal) S1024x256 .f32 0x00000000#32) (ix2 r c) = _
  rw [Ideal.matmul_constant_zero_apply, ← Equiv.sum_comp (ValueIdx.contrEquiv1 dot_S1024x2048_S2048x256_S1024x256_1_0_0_1_n_n 2048 rfl rfl).symm]
  refine Finset.sum_congr rfl fun k _ => ?_
  have hk := ValueIdx.contrEquiv1_symm_val dot_S1024x2048_S2048x256_S1024x256_1_0_0_1_n_n 2048 rfl rfl k
  have el : dot_S1024x2048_S2048x256_S1024x256_1_0_0_1_n_n.lhsIdx (ix2 r c) ((ValueIdx.contrEquiv1 dot_S1024x2048_S2048x256_S1024x256_1_0_0_1_n_n 2048 rfl rfl).symm k) = ix2 r k := funext fun x => Fin.ext (by
    match x with
    | ⟨0, _⟩ => exact matmul_gate_lhs_0 _ _
    | ⟨1, _⟩ => exact (matmul_gate_lhs_1 _ _).trans hk)
  have er : dot_S1024x2048_S2048x256_S1024x256_1_0_0_1_n_n.rhsIdx (ix2 r c) ((ValueIdx.contrEquiv1 dot_S1024x2048_S2048x256_S1024x256_1_0_0_1_n_n 2048 rfl rfl).symm k) = ix2 k c := funext fun x => Fin.ext (by
    match x with
    | ⟨0, _⟩ => exact (matmul_gate_rhs_0 _ _).trans hk
    | ⟨1, _⟩ => exact matmul_gate_rhs_1 _ _)
  rw [el, er]

/-- The first operand index of the [1024,256] × [256,2048] product at output (r, c) keeps the row r on its free axis. -/
theorem matmul_down_lhs_0 (i : S1024x2048.Idx) (q : dot_S1024x256_S256x2048_S1024x2048_1_0_0_1_n_n.contr.Idx) :
    (dot_S1024x256_S256x2048_S1024x2048_1_0_0_1_n_n.lhsIdx i q 0).val = (i 0).val := by
  unfold DotDims.lhsIdx
  rw [dif_neg (show ¬(0 : Fin S1024x256.rank) ∈ dot_S1024x256_S256x2048_S1024x2048_1_0_0_1_n_n.lhsBatch by decide), dif_pos (show (0 : Fin S1024x256.rank) ∈ dot_S1024x256_S256x2048_S1024x2048_1_0_0_1_n_n.lhsNonContracting by decide)]
  rfl
/-- … and carries the contraction coordinate on its second axis. -/
theorem matmul_down_lhs_1 (i : S1024x2048.Idx) (q : dot_S1024x256_S256x2048_S1024x2048_1_0_0_1_n_n.contr.Idx) :
    (dot_S1024x256_S256x2048_S1024x2048_1_0_0_1_n_n.lhsIdx i q 1).val = (q ⟨0, by decide⟩).val :=
  dot_S1024x256_S256x2048_S1024x2048_1_0_0_1_n_n.lhsIdx_val_of_single rfl i q
/-- The second operand index carries the contraction coordinate on its first axis … -/
theorem matmul_down_rhs_0 (i : S1024x2048.Idx) (q : dot_S1024x256_S256x2048_S1024x2048_1_0_0_1_n_n.contr.Idx) :
    (dot_S1024x256_S256x2048_S1024x2048_1_0_0_1_n_n.rhsIdx i q 0).val = (q ⟨0, by decide⟩).val :=
  dot_S1024x256_S256x2048_S1024x2048_1_0_0_1_n_n.rhsIdx_val_of_single rfl i q
/-- … and keeps the column c on its free axis. -/
theorem matmul_down_rhs_1 (i : S1024x2048.Idx) (q : dot_S1024x256_S256x2048_S1024x2048_1_0_0_1_n_n.contr.Idx) :
    (dot_S1024x256_S256x2048_S1024x2048_1_0_0_1_n_n.rhsIdx i q 1).val = (i 1).val := by
  unfold DotDims.rhsIdx
  rw [dif_neg (show ¬(1 : Fin S256x2048.rank) ∈ dot_S1024x256_S256x2048_S1024x2048_1_0_0_1_n_n.rhsBatch by decide), dif_pos (show (1 : Fin S256x2048.rank) ∈ dot_S1024x256_S256x2048_S1024x2048_1_0_0_1_n_n.rhsNonContracting by decide)]
  rfl

/-- The [1024,256] × [256,2048] product into the zero accumulator, read at (r, c), is the plain sum
    `∑ k, a (r, k) * b (k, c)` over the 256 contracted coordinates. -/
theorem matmul_down (a : FVec Ideal S1024x256 .bf16) (b : FVec Ideal S256x2048 .bf16) (r : Fin 1024) (c : Fin 2048) :
    matmul (F := Ideal) dot_S1024x256_S256x2048_S1024x2048_1_0_0_1_n_n none a b (constant (F := Ideal) S1024x2048 .f32 0x00000000#32) (ix2 r c)
      = ∑ k : Fin 256, a (ix2 r k) * b (ix2 k c) := by
  show FloatOps.matmul dot_S1024x256_S256x2048_S1024x2048_1_0_0_1_n_n none a b (constant (F := Ideal) S1024x2048 .f32 0x00000000#32) (ix2 r c) = _
  rw [Ideal.matmul_constant_zero_apply, ← Equiv.sum_comp (ValueIdx.contrEquiv1 dot_S1024x256_S256x2048_S1024x2048_1_0_0_1_n_n 256 rfl rfl).symm]
  refine Finset.sum_congr rfl fun k _ => ?_
  have hk := ValueIdx.contrEquiv1_symm_val dot_S1024x256_S256x2048_S1024x2048_1_0_0_1_n_n 256 rfl rfl k
  have el : dot_S1024x256_S256x2048_S1024x2048_1_0_0_1_n_n.lhsIdx (ix2 r c) ((ValueIdx.contrEquiv1 dot_S1024x256_S256x2048_S1024x2048_1_0_0_1_n_n 256 rfl rfl).symm k) = ix2 r k := funext fun x => Fin.ext (by
    match x with
    | ⟨0, _⟩ => exact matmul_down_lhs_0 _ _
    | ⟨1, _⟩ => exact (matmul_down_lhs_1 _ _).trans hk)
  have er : dot_S1024x256_S256x2048_S1024x2048_1_0_0_1_n_n.rhsIdx (ix2 r c) ((ValueIdx.contrEquiv1 dot_S1024x256_S256x2048_S1024x2048_1_0_0_1_n_n 256 rfl rfl).symm k) = ix2 k c := funext fun x => Fin.ext (by
    match x with
    | ⟨0, _⟩ => exact (matmul_down_rhs_0 _ _).trans hk
    | ⟨1, _⟩ => exact matmul_down_rhs_1 _ _)
  rw [el, er]

/-! ## A column broadcast along the rows -/

/-- An `[a, 1]` column broadcast to `[a, b]` reads, at `(p, c)`, the column's entry in row `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-! ## The payloads at an index -/

/-- The initial accumulator block is zero everywhere. -/
theorem pay2_apply (r : Fin 1024) (d : Fin 2048) : k0_pay2 (F := Ideal) (ix2 r d) = 0 := by
  unfold k0_pay2
  rw [shapeCast_self]
  show Ideal.ofBits .f32 0x00000000#32 = 0
  exact Ideal.ofBits_zero_f32

/-- The gated activation shared by the two branches: with `g = ∑ k, a (r,k) * bg (k,f)` and
    `u = ∑ k, a (r,k) * bu (k,f)`, the product `(g * logistic g) * u` scaled by the weight `m (r,f)`;
    the narrowing of the result's format is the identity on extended reals. -/
theorem gated_apply (a : FVec Ideal S1024x2048 .bf16) (bg bu : FVec Ideal S2048x256 .bf16)
    (m : FVec Ideal S1024x256 .f32) (r : Fin 1024) (f : Fin 256) :
    (truncf .bf16
        (mulf
          (mulf
            (mulf (matmul (F := Ideal) dot_S1024x2048_S2048x256_S1024x256_1_0_0_1_n_n none a bg (constant (F := Ideal) S1024x256 .f32 0x00000000#32))
              (logistic (matmul (F := Ideal) dot_S1024x2048_S2048x256_S1024x256_1_0_0_1_n_n none a bg (constant (F := Ideal) S1024x256 .f32 0x00000000#32))))
            (matmul (F := Ideal) dot_S1024x2048_S2048x256_S1024x256_1_0_0_1_n_n none a bu (constant (F := Ideal) S1024x256 .f32 0x00000000#32)))
          m) bitsLt_bf16_f32 : FVec Ideal S1024x256 .bf16) (ix2 r f)
      = (((∑ k : Fin 2048, a (ix2 r k) * bg (ix2 k f)) * Ideal.logistic (∑ k : Fin 2048, a (ix2 r k) * bg (ix2 k f)))
          * (∑ k : Fin 2048, a (ix2 r k) * bu (ix2 k f))) * m (ix2 r f) := by
  rw [truncf_apply, mulf_apply, mulf_apply, mulf_apply]
  show (_ * Ideal.logistic _) * _ * _ = _
  rw [matmul_gate a bg r f, matmul_gate a bu r f]

/-- The first branch's activation: the gated product scaled by `1 - w r`. -/
theorem pay5_apply (x0 : Vec Ideal S1024x2048 .bf16) (x7 : Vec Ideal S1024x1 .f32) (x1 x2 : Vec Ideal S2048x256 .bf16) (r : Fin 1024) (f : Fin 256) :
    k0_pay5 x0 x7 x1 x2 (ix2 r f)
      = (((∑ k : Fin 2048, x0 (ix2 r k) * x1 (ix2 k f)) * Ideal.logistic (∑ k : Fin 2048, x0 (ix2 r k) * x1 (ix2 k f)))
          * (∑ k : Fin 2048, x0 (ix2 r k) * x2 (ix2 k f))) * (1 - x7 (ix2 r 0)) := by
  unfold k0_pay5 k0_pay3 k0_pay4
  rw [shapeCast_self x0, shapeCast_self x1, shapeCast_self x2, shapeCast_self x7]
  refine (gated_apply x0 x1 x2 _ r f).trans ?_
  congr 1
  refine (broadcastTo_a1_ab_apply _ broadcasts_S1024x1_S1024x256 r f).trans ?_
  rw [subf_apply, broadcast_apply]
  show Ideal.ofBits .f32 0x3F800000#32 - x7 (ix2 r 0) = _
  rw [Ideal.ofBits_one_f32]

/-- The second branch's activation: the gated product scaled by `w r`. -/
theorem pay6_apply (x0 : Vec Ideal S1024x2048 .bf16) (x7 : Vec Ideal S1024x1 .f32) (x4 x5 : Vec Ideal S2048x256 .bf16) (r : Fin 1024) (f : Fin 256) :
    k0_pay6 x0 x7 x4 x5 (ix2 r f)
      = (((∑ k : Fin 2048, x0 (ix2 r k) * x4 (ix2 k f)) * Ideal.logistic (∑ k : Fin 2048, x0 (ix2 r k) * x4 (ix2 k f)))
          * (∑ k : Fin 2048, x0 (ix2 r k) * x5 (ix2 k f))) * x7 (ix2 r 0) := by
  unfold k0_pay6 k0_pay3 k0_pay4
  rw [shapeCast_self x0, shapeCast_self x4, shapeCast_self x5, shapeCast_self x7]
  refine (gated_apply x0 x4 x5 _ r f).trans ?_
  congr 1
  exact broadcastTo_a1_ab_apply _ broadcasts_S1024x1_S1024x256 r f

/-- The accumulator update: the old value plus the two branches' down projections. -/
theorem pay1_apply (v20 v32 : FVec Ideal S1024x256 .bf16) (acc : Vec Ideal S1024x2048 .f32) (x3 x6 : Vec Ideal S256x2048 .bf16) (r : Fin 1024) (d : Fin 2048) :
    k0_pay1 v20 v32 acc x3 x6 (ix2 r d)
      = acc (ix2 r d) + ((∑ f : Fin 256, v20 (ix2 r f) * x3 (ix2 f d)) + (∑ f : Fin 256, v32 (ix2 r f) * x6 (ix2 f d))) := by
  unfold k0_pay1
  rw [shapeCast_self x3, shapeCast_self x6, shapeCast_self]
  rw [addf_apply, addf_apply]
  rw [matmul_down v20 x3 r d, matmul_down v32 x6 r d]

end Cert.KernelIdeal.Pay

end
-- ==== Proof.StepValue.lean ====
/-
  One accumulation step of the kernel, read at an entry (r, d) of the token tile, is the accumulator plus the block
  term of the layer's blocked form: when the step's input blocks are the token tile's row, the two experts' gate / up
  column blocks and down row blocks of block `j`, and the row's mask weight, the two matrix products down the 256
  columns of the block are exactly the two sums of the block term.
-/
import proofs.«112127_j13434657702336_2_alg».proof.Proof.Pieces
import proofs.«112127_j13434657702336_2_alg».proof.Proof.Payloads
import proofs.«112127_j13434657702336_2_alg».proof.Proof.Spec

noncomputable section

open scoped BigOperators

namespace Cert.KernelIdeal.StepValue

open Cert.KernelIdeal Cert.KernelIdeal.Gen Idealize.ShloMosaic Idealize.ShloMosaic.ValueIdx Cert.Swiglu

/-- The block a tile's first step starts from is zero everywhere. -/
theorem zero_apply (r : Fin 1024) (d : Fin 2048) : (k0_pay2 (F := Ideal)) (ix2 r d) = 0 := Pay.pay2_apply r d

/-- The step at (r, d): the accumulator plus block `j`'s term for token `t` and output column `d`, given that the
    step's blocks hold row `t` of the tokens (`h0`), columns `256 j + f` of the gate and up matrices (`h1 h2 h4 h5`),
    rows `256 j + f` of the down matrices (`h3 h6`) and the token's mask weight (`h7`). -/
theorem step_eq_blockTerm {T : ℕ} (X : Fin T → Fin 2048 → EReal) (Ug Uu : Fin 2048 → Fin 5632 → EReal) (Ud : Fin 5632 → Fin 2048 → EReal)
    (Gg Gu : Fin 2048 → Fin 5632 → EReal) (Gd : Fin 5632 → Fin 2048 → EReal) (w : Fin T → EReal) (t : Fin T) (j : Fin 22)
    (x0 : Vec Ideal S1024x2048 .bf16) (x1 x2 : Vec Ideal S2048x256 .bf16) (x3 : Vec Ideal S256x2048 .bf16)
    (x4 x5 : Vec Ideal S2048x256 .bf16) (x6 : Vec Ideal S256x2048 .bf16) (x7 : Vec Ideal S1024x1 .f32)
    (acc : Vec Ideal S1024x2048 .f32) (r : Fin 1024) (d : Fin 2048)
    (h0 : ∀ k : Fin 2048, x0 (ix2 r k) = X t k)
    (h1 : ∀ (k : Fin 2048) (f : Fin 256), x1 (ix2 k f) = Ug k (col j f))
    (h2 : ∀ (k : Fin 2048) (f : Fin 256), x2 (ix2 k f) = Uu k (col j f))
    (h3 : ∀ f : Fin 256, x3 (ix2 f d) = Ud (col j f) d)
    (h4 : ∀ (k : Fin 2048) (f : Fin 256), x4 (ix2 k f) = Gg k (col j f))
    (h5 : ∀ (k : Fin 2048) (f : Fin 256), x5 (ix2 k f) = Gu k (col j f))
    (h6 : ∀ f : Fin 256, x6 (ix2 f d) = Gd (col j f) d)
    (h7 : x7 (ix2 r (0 : Fin 1)) = w t) :
    Pieces.step (F := Ideal) x0 x1 x2 x3 x4 x5 x6 x7 acc (ix2 r d) = acc (ix2 r d) + blockTerm X Ug Uu Ud Gg Gu Gd w t d j := by
  show k0_pay1 (k0_pay5 x0 x7 x1 x2) (k0_pay6 x0 x7 x4 x5) acc x3 x6 (ix2 r d) = _
  rw [Pay.pay1_apply]
  refine congrArg (fun z => acc (ix2 r d) + z) ?_
  unfold blockTerm act
  refine congrArg₂ (fun a b : EReal => a + b) ?_ ?_
  · refine Finset.sum_congr rfl fun f _ => ?_
    rw [Pay.pay5_apply, h3 f, h7]
    simp only [h0, h1, h2]
  · refine Finset.sum_congr rfl fun f _ => ?_
    rw [Pay.pay6_apply, h6 f, h7]
    simp only [h0, h4, h5]

end Cert.KernelIdeal.StepValue

end
-- ==== Proof.Fold.lean ====
/-
  The accumulator along a token tile. Point t = 22 i + j of the grid works on token tile i and column block j. Reading
  the point's input blocks as pieces of the (padded) argument arrays, the step adds to every accumulator entry the
  block's term for that token and output column; so after point 22 i + j the accumulator holds the sum of the terms of
  blocks 0 … j, by induction on the point.
-/
import proofs.«112127_j13434657702336_2_alg».proof.Proof.Gen.KernelIdeal.Frame
import proofs.«112127_j13434657702336_2_alg».proof.Proof.Spec
import proofs.«112127_j13434657702336_2_alg».proof.Proof.Pieces
import proofs.«112127_j13434657702336_2_alg».proof.Proof.Host
import proofs.«112127_j13434657702336_2_alg».proof.Proof.HostValue
import proofs.«112127_j13434657702336_2_alg».proof.Proof.StepValue
import Idealize.ShloMosaic.Lib.Pipeline.Value
import Idealize.ShloMosaic.Lib.ValueIdx

set_option maxRecDepth 16384

noncomputable section

open Idealize.ShloMosaic Idealize.ShloMosaic.TcCoe Idealize.SL.Sem

namespace Cert.KernelIdeal.Fold
open Cert.KernelIdeal Cert.KernelIdeal.Gen Idealize.ShloMosaic.ValueIdx Cert.Swiglu

variable (m : (ℓ : Loc nD τ sig) → Buf (Elt Ideal) ℓ)

/-- The eight argument arrays as functions of coordinates. -/
abbrev tokens (c : Dev nD) : Fin 16384 → Fin 2048 → EReal := fun t k => m ((c : Thread nD τ).loc main_arg0) (ix2 t k)
abbrev gate1 (c : Dev nD) : Fin 2048 → Fin 5504 → EReal := fun k f => m ((c : Thread nD τ).loc main_arg1) (ix2 k f)
abbrev up1 (c : Dev nD) : Fin 2048 → Fin 5504 → EReal := fun k f => m ((c : Thread nD τ).loc main_arg2) (ix2 k f)
abbrev down1 (c : Dev nD) : Fin 5504 → Fin 2048 → EReal := fun f d => m ((c : Thread nD τ).loc main_arg3) (ix2 f d)
abbrev gate2 (c : Dev nD) : Fin 2048 → Fin 5504 → EReal := fun k f => m ((c : Thread nD τ).loc main_arg4) (ix2 k f)
abbrev up2 (c : Dev nD) : Fin 2048 → Fin 5504 → EReal := fun k f => m ((c : Thread nD τ).loc main_arg5) (ix2 k f)
abbrev down2 (c : Dev nD) : Fin 5504 → Fin 2048 → EReal := fun f d => m ((c : Thread nD τ).loc main_arg6) (ix2 f d)
abbrev maskBits (c : Dev nD) : Fin 16384 → BitVec 1 := fun t => m ((c : Thread nD τ).loc main_arg7) (ix1 t)

/-- Block `j`'s term at token `tr`, output column `d`, over the padded arguments and the mask read as 0 or 1. -/
abbrev term (c : Dev nD) (tr : Fin 16384) (d : Fin 2048) (j : Fin 22) : EReal :=
  blockTerm (tokens m c) (padCols (gate1 m c)) (padCols (up1 m c)) (padRows (down1 m c)) (padCols (gate2 m c)) (padCols (up2 m c)) (padRows (down2 m c)) (maskWeight (maskBits m c)) tr d j

/-- The same at a natural number. -/
abbrev termN (c : Dev nD) (tr : Fin 16384) (d : Fin 2048) (j : ℕ) : EReal :=
  blockTermN (tokens m c) (padCols (gate1 m c)) (padCols (up1 m c)) (padRows (down1 m c)) (padCols (gate2 m c)) (padCols (up2 m c)) (padRows (down2 m c)) (maskWeight (maskBits m c)) tr d j

theorem termN_of_lt (c : Dev nD) (tr : Fin 16384) (d : Fin 2048) (j : ℕ) (hj : j < 22) :
    termN m c tr d j = term m c tr d ⟨j, hj⟩ := dif_pos hj

/-- The step at point `t = 22 i + j`, on the point's input blocks, adds block `j`'s term: entry `(r, d)` of the tile
    is token `1024 i + r`. -/
theorem step_at (c : Dev nD) (t : Fin cfg0.N) (i j : ℕ) (ht : t.val = 22 * i + j) (hj : j < 22)
    (acc : Vec Ideal S1024x2048 .f32) (r : Fin 1024) (d : Fin 2048) (tr : Fin 16384) (htr : tr.val = 1024 * i + r.val) :
    Pieces.step (F := Ideal) (iblk m c 0 t) (iblk m c 1 t) (iblk m c 2 t) (iblk m c 3 t) (iblk m c 4 t) (iblk m c 5 t) (iblk m c 6 t) (iblk m c 7 t) acc (ix2 r d) = acc (ix2 r d) + term m c tr d ⟨j, hj⟩ := by
  have hq : t.val / 22 = i := by omega
  have hm : t.val % 22 = j := by omega
  refine StepValue.step_eq_blockTerm (tokens m c) (padCols (gate1 m c)) (padCols (up1 m c)) (padRows (down1 m c)) (padCols (gate2 m c)) (padCols (up2 m c)) (padRows (down2 m c)) (maskWeight (maskBits m c)) tr ⟨j, hj⟩
    (iblk m c 0 t) (iblk m c 1 t) (iblk m c 2 t) (iblk m c 3 t) (iblk m c 4 t) (iblk m c 5 t) (iblk m c 6 t) (iblk m c 7 t) acc r d ?_ ?_ ?_ ?_ ?_ ?_ ?_ ?_
  · intro k
    exact (Host.iblk0_at m c t (ix2 r k) (ix2 tr k) (by show tr.val = 1024 * (t.val / 22) + r.val; omega) rfl).trans
      ((congrFun (Host.V_tokens m c) (ix2 tr k)).trans (HostValue.tokens_apply _ tr k))
  · intro k f
    exact (Host.iblk1_at m c t (ix2 k f) (ix2 k (col ⟨j, hj⟩ f)) rfl (by show 256 * j + f.val = 256 * (t.val % 22) + f.val; omega)).trans
      ((congrFun (Host.V_gate1 m c) (ix2 k (col ⟨j, hj⟩ f))).trans (HostValue.padded_cols_apply _ k (col ⟨j, hj⟩ f)))
  · intro k f
    exact (Host.iblk2_at m c t (ix2 k f) (ix2 k (col ⟨j, hj⟩ f)) rfl (by show 256 * j + f.val = 256 * (t.val % 22) + f.val; omega)).trans
      ((congrFun (Host.V_up1 m c) (ix2 k (col ⟨j, hj⟩ f))).trans (HostValue.padded_cols_apply _ k (col ⟨j, hj⟩ f)))
  · intro f
    exact (Host.iblk3_at m c t (ix2 f d) (ix2 (col ⟨j, hj⟩ f) d) (by show 256 * j + f.val = 256 * (t.val % 22) + f.val; omega) rfl).trans
      ((congrFun (Host.V_down1 m c) (ix2 (col ⟨j, hj⟩ f) d)).trans (HostValue.padded_rows_apply _ (col ⟨j, hj⟩ f) d))
  · intro k f
    exact (Host.iblk4_at m c t (ix2 k f) (ix2 k (col ⟨j, hj⟩ f)) rfl (by show 256 * j + f.val = 256 * (t.val % 22) + f.val; omega)).trans
      ((congrFun (Host.V_gate2 m c) (ix2 k (col ⟨j, hj⟩ f))).trans (HostValue.padded_cols_apply _ k (col ⟨j, hj⟩ f)))
  · intro k f
    exact (Host.iblk5_at m c t (ix2 k f) (ix2 k (col ⟨j, hj⟩ f)) rfl (by show 256 * j + f.val = 256 * (t.val % 22) + f.val; omega)).trans
      ((congrFun (Host.V_up2 m c) (ix2 k (col ⟨j, hj⟩ f))).trans (HostValue.padded_cols_apply _ k (col ⟨j, hj⟩ f)))
  · intro f
    exact (Host.iblk6_at m c t (ix2 f d) (ix2 (col ⟨j, hj⟩ f) d) (by show 256 * j + f.val = 256 * (t.val % 22) + f.val; omega) rfl).trans
      ((congrFun (Host.V_down2 m c) (ix2 (col ⟨j, hj⟩ f) d)).trans (HostValue.padded_rows_apply _ (col ⟨j, hj⟩ f) d))
  · exact (Host.iblk7_at m c t (ix2 r (0 : Fin 1)) (ix2 tr (0 : Fin 1)) (by show tr.val = 1024 * (t.val / 22) + r.val; omega) rfl).trans
      ((congrFun (Host.V_mask m c) (ix2 tr (0 : Fin 1))).trans (HostValue.mask_apply _ tr))

/-- After point `n = 22 i + j` the accumulator's entry `(r, d)` is the sum of the terms of blocks `0 … j` at token
    `1024 i + r`. -/
theorem scratch_eq (c : Dev nD) : ∀ (n : ℕ) (h : n < cfg0.N) (i j : ℕ) (hn : n = 22 * i + j) (hj : j < 22)
    (r : Fin 1024) (d : Fin 2048) (tr : Fin 16384) (htr : tr.val = 1024 * i + r.val),
    (outsAt0 m c n h).2 (ix2 r d) = ∑ jj ∈ Finset.range (j + 1), termN m c tr d jj := by
  intro n
  induction n with
  | zero =>
    intro h i j hn hj r d tr htr
    obtain rfl : j = 0 := by omega
    refine (congrFun (congrArg Prod.snd (outsAt0_A m c ⟨0, h⟩ rfl (by show ¬0 % 22 = 21; decide))) (ix2 r d)).trans ?_
    dsimp only
    rw [Pieces.scratch_A, step_at m c ⟨0, h⟩ i 0 hn hj _ r d tr htr, StepValue.zero_apply, zero_add,
      Finset.sum_range_succ, Finset.sum_range_zero, zero_add, termN_of_lt m c tr d 0 hj]
  | succ n ih =>
    intro h i j hn hj r d tr htr
    by_cases hj0 : j = 0
    · subst hj0
      refine (congrFun (congrArg Prod.snd (outsAt0_A m c ⟨n + 1, h⟩ (by show (n + 1) % 22 = 0; omega) (by show ¬(n + 1) % 22 = 21; omega))) (ix2 r d)).trans ?_
      dsimp only
      rw [Pieces.scratch_A, step_at m c ⟨n + 1, h⟩ i 0 hn hj _ r d tr htr, StepValue.zero_apply, zero_add,
        Finset.sum_range_succ, Finset.sum_range_zero, zero_add, termN_of_lt m c tr d 0 hj]
    · have ih' := ih (Nat.lt_of_succ_lt h) i (j - 1) (by omega) (by omega) r d tr htr
      rw [show j - 1 + 1 = j by omega] at ih'
      by_cases h21 : j = 21
      · refine (congrFun (congrArg Prod.snd (outsAt0_C m c ⟨n + 1, h⟩ (by show ¬(n + 1) % 22 = 0; omega) (by show (n + 1) % 22 = 21; omega))) (ix2 r d)).trans ?_
        dsimp only
        rw [Pieces.scratch_C, step_at m c ⟨n + 1, h⟩ i j hn hj _ r d tr htr, Finset.sum_range_succ, termN_of_lt m c tr d j hj]
        exact congrArg (· + term m c tr d ⟨j, hj⟩) ih'
      · refine (congrFun (congrArg Prod.snd (outsAt0_B m c ⟨n + 1, h⟩ (by show ¬(n + 1) % 22 = 0; omega) (by show ¬(n + 1) % 22 = 21; omega))) (ix2 r d)).trans ?_
        dsimp only
        rw [Pieces.scratch_B, step_at m c ⟨n + 1, h⟩ i j hn hj _ r d tr htr, Finset.sum_range_succ, termN_of_lt m c tr d j hj]
        exact congrArg (· + term m c tr d ⟨j, hj⟩) ih'

end Cert.KernelIdeal.Fold
end
-- ==== Proof.Cover.lean ====
/-
  The geometry of the kernel's output window. The grid has 352 points t = 22·i + j, with i < 16 the tile of 1024 token
  rows and j < 22 the block of hidden columns. The output window's block at the point t is the rows 1024·i … 1024·i + 1023
  and all 2048 columns of the result, and it is written back exactly at the last point of each row tile, j = 21. So the
  blocks written back tile the whole result, and an entry of a block is the entry of the array at the shifted row.
-/
import proofs.«112127_j13434657702336_2_alg».proof.Proof.Gen.KernelIdeal.Frame
import Idealize.ShloMosaic.Lib.Pipeline.Value
import Idealize.ShloMosaic.Lib.ValueIdx

set_option maxRecDepth 16384

noncomputable section

namespace Cert.KernelIdeal.Cover

open Cert.KernelIdeal Cert.KernelIdeal.Gen Idealize.ShloMosaic Idealize.ShloMosaic.TcCoe Idealize.ShloMosaic.ValueIdx

variable {F : FTy → Type} [FloatOps F]

/-- The output window's block index at the point `t`: the row tile `t / 22`, and column block 0. -/
theorem out_index : ∀ t : Fin cfg0.N, win0_8.index t 0 = t.val / 22 ∧ win0_8.index t 1 = 0 :=
  (by decide +kernel : ∀ t : Fin grid0.N, win0_8.index t 0 = t.val / 22 ∧ win0_8.index t 1 = 0)

/-- An index of the result is in the block of the point `t` iff each coordinate is in the block's range on its axis. -/
theorem mem_blk (t : Fin cfg0.N) (i : S16384x2048.Idx) :
    i ∈ ((cfg0.win 8).blk t).view.set ↔ ∀ a : Fin 2, win0_8.index t a * S1024x2048.size a ≤ (i a).val
      ∧ (i a).val < win0_8.index t a * S1024x2048.size a + S1024x2048.size a := by
  show i ∈ ((View.whole main_v15).slice (win0_8.rect t)).set ↔ _
  rw [View.set_slice_whole, Rect.mem_set_unit]
  exact Iff.rfl

/-- Every entry of the result is in a block that is written back: the entry in row `r` is in the block of the last
    point of the row tile `r / 1024`, the point `22 · (r / 1024) + 21`. -/
theorem cover (i : S16384x2048.Idx) : ∃ t : Fin cfg0.N, (cfg0.win 8).flush t = true ∧ i ∈ ((cfg0.win 8).blk t).view.set := by
  have h0 : (i 0).val < 16384 := (i 0).isLt
  have h1 : (i 1).val < 2048 := (i 1).isLt
  have hN : cfg0.N = 352 := N_0
  have ht : 22 * ((i 0).val / 1024) + 21 < cfg0.N := by rw [hN]; omega
  obtain ⟨e0, e1⟩ := out_index ⟨22 * ((i 0).val / 1024) + 21, ht⟩
  refine ⟨⟨22 * ((i 0).val / 1024) + 21, ht⟩, (flush0_8 _).2 (by show (22 * ((i 0).val / 1024) + 21) % 22 = 21; omega), ?_⟩
  rw [mem_blk]
  intro a
  match a with
  | ⟨0, _⟩ =>
    show win0_8.index ⟨22 * ((i 0).val / 1024) + 21, ht⟩ 0 * 1024 ≤ (i 0).val
      ∧ (i 0).val < win0_8.index ⟨22 * ((i 0).val / 1024) + 21, ht⟩ 0 * 1024 + 1024
    rw [e0]
    show (22 * ((i 0).val / 1024) + 21) / 22 * 1024 ≤ (i 0).val ∧ (i 0).val < (22 * ((i 0).val / 1024) + 21) / 22 * 1024 + 1024
    omega
  | ⟨1, _⟩ =>
    show win0_8.index ⟨22 * ((i 0).val / 1024) + 21, ht⟩ 1 * 2048 ≤ (i 1).val
      ∧ (i 1).val < win0_8.index ⟨22 * ((i 0).val / 1024) + 21, ht⟩ 1 * 2048 + 2048
    rw [e1]
    omega

/-- An array read through the block of the point `t`: the block's entry `y` is the array's entry in row
    `1024 · (t / 22) + y 0` and column `y 1`. -/
theorem block_read (G : S16384x2048.Idx → Elt F .f32) (t : Fin cfg0.N) (y : S1024x2048.Idx) (i : S16384x2048.Idx)
    (h0 : (i 0).val = 1024 * (t.val / 22) + (y 0).val) (h1 : (i 1).val = (y 1).val) :
    (((cfg0.win 8).blk t).view.read (Elt F) G : Vec F S1024x2048 .f32) y = G i := by
  obtain ⟨e0, e1⟩ := out_index t
  rw [View.read_apply]
  show G _ = G i
  congr 1
  funext a
  apply Fin.ext
  match a with
  | ⟨0, _⟩ => show win0_8.index t 0 * 1024 + 1 * (y 0).val = (i 0).val; rw [e0, h0]; omega
  | ⟨1, _⟩ => show win0_8.index t 1 * 2048 + 1 * (y 1).val = (i 1).val; rw [e1, h1]; omega

end Cert.KernelIdeal.Cover

end
-- ==== Proof.Final.lean ====
/-
  From blocks to the array. The output window is written back only at a tile's last point, t = 22 i + 21, and what is
  written there is the accumulator after all 22 blocks: entry (r, d) is the sum of the 22 block terms at token
  1024 i + r, which is the layer's value there. The 16 written-back blocks cover the result array, so the array after
  the run is the layer's value everywhere.
-/
import proofs.«112127_j13434657702336_2_alg».proof.Proof.Gen.KernelIdeal.Value
import proofs.«112127_j13434657702336_2_alg».proof.Proof.Spec
import proofs.«112127_j13434657702336_2_alg».proof.Proof.Algebra
import proofs.«112127_j13434657702336_2_alg».proof.Proof.Pieces
import proofs.«112127_j13434657702336_2_alg».proof.Proof.Fold
import proofs.«112127_j13434657702336_2_alg».proof.Proof.Cover
import Idealize.ShloMosaic.Lib.Pipeline.Value
import Idealize.ShloMosaic.Lib.ValueIdx

set_option maxRecDepth 16384

noncomputable section

open Idealize.ShloMosaic Idealize.ShloMosaic.TcCoe Idealize.SL.Sem
open Idealize.ShloMosaic.Pipeline (Dat)

namespace Cert.KernelIdeal.Final
open Cert.KernelIdeal Cert.KernelIdeal.Gen Idealize.ShloMosaic.ValueIdx Cert.Swiglu

variable (m : (ℓ : Loc nD τ sig) → Buf (Elt Ideal) ℓ) (ρ : Dev nD → PrngReg)

/-- The layer's value at the argument arrays: what the result array is to hold. -/
abbrev resultOf (c : Dev nD) : Buf (Elt Ideal) ((c : Thread nD τ).loc main_v15) :=
  Cert.Swiglu.result (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7))

/-- Entry `i` of it is the 22 block terms added up (the algebra of the specification). -/
theorem result_apply (c : Dev nD) (i : S16384x2048.Idx) :
    resultOf m c i = ∑ jj ∈ Finset.range 22, Fold.termN m c (i 0) (i 1) jj :=
  (blocked_eq_moe (Fold.tokens m c) (Fold.gate1 m c) (Fold.up1 m c) (Fold.down1 m c) (Fold.gate2 m c) (Fold.up2 m c)
    (Fold.down2 m c) (Fold.maskBits m c) (i 0) (i 1)).symm

/-- The same at explicit coordinates. -/
theorem result_at (c : Dev nD) (tr : Fin 16384) (d : Fin 2048) :
    resultOf m c (ix2 tr d) = ∑ jj ∈ Finset.range 22, Fold.termN m c tr d jj :=
  result_apply m c (ix2 tr d)

/-- What a tile's last point writes back is the layer's value on the tile's block. -/
theorem flushed_eq (c : Dev nD) (t : Fin cfg0.N) (hf : (cfg0.win 8).flush t = true) :
    (dats m 0 c).flushed 8 t = ((cfg0.win 8).blk t).view.read (Elt Ideal) (resultOf m c) := by
  have h21 : t.val % 22 = 21 := (flush0_8 t).mp hf
  have hN : t.val < 352 := lt_of_lt_of_eq t.isLt (show cfg0.N = 352 from N_0)
  rw [Value.flushed8_C m c t (by omega) h21]
  refine funext fun (y : S1024x2048.Idx) => ?_
  obtain ⟨r, d, rfl⟩ : ∃ (r : Fin 1024) (d : Fin 2048), y = ix2 r d := ⟨y 0, y 1, eq_ix2 y⟩
  have hr : r.val < 1024 := r.isLt
  have cutAt : ∀ X : S1024x2048.Idx → EReal, (cfg0.win 8).cut (grid0.coords t) X (ix2 r d) = X (ix2 r d) := fun X =>
    congrArg X (funext fun a => Fin.ext (by match a with | ⟨0, _⟩ => rfl | ⟨1, _⟩ => rfl))
  have htr : 1024 * (t.val / 22) + r.val < 16384 := by omega
  rw [Cover.block_read (resultOf m c) t (ix2 r d) (ix2 (⟨1024 * (t.val / 22) + r.val, htr⟩ : Fin 16384) d) rfl rfl,
    result_at, cutAt, Pieces.out_C,
    Fold.step_at m c t (t.val / 22) 21 (by omega) (by decide) _ r d ⟨1024 * (t.val / 22) + r.val, htr⟩ rfl,
    Finset.sum_range_succ, Fold.termN_of_lt m c _ _ 21 (by decide)]
  exact congrArg (· + Fold.term m c ⟨1024 * (t.val / 22) + r.val, htr⟩ d ⟨21, by decide⟩)
    (Fold.scratch_eq m c (t.val - 1) _ (t.val / 22) 20 (by omega) (by decide) r d ⟨1024 * (t.val / 22) + r.val, htr⟩ rfl)

/-- The result array after the run. -/
theorem final (c : Dev nD) : (dats m 0 c).arrAt 8 cfg0.N = resultOf m c :=
  (dats m 0 c).arrAt_eq_of_cover 8 (resultOf m c) (flushed_eq m c) Cover.cover

/-- Every weakly fair execution of the idealized kernel ends with the result array at the layer's value and the
    arguments unchanged. -/
theorem run : θ_run defs (onTc (τ := τ) (main (F := Ideal))) ⟨m, fun _ => 0, ρ⟩ fun r => ∀ c : Dev nD,
      r.2.mem ((c : Thread nD τ).loc main_v15) = resultOf m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.Final
end
-- ==== Proof.lean ====
/-
  The certificate of a two-expert SwiGLU layer with a per-token choice of expert.

  The kernel walks a 16 x 22 grid: 16 tiles of 1024 tokens, and for each tile the 22 column blocks (256 wide) of the
  hidden dimension, zero-padded from 5504 to 5632. At every block it adds into one accumulator the two down-projections
  of the block's activations, the first expert's weighted by (1 - m) and the second's by m, where m is the token's
  mask read as 0 or 1; the accumulator is written out at the last block. The reference evaluates both experts whole
  and selects per token. Over the extended reals the two agree: a weight 0 annihilates its term, a weight 1 leaves it,
  the padded columns contribute zeros, and a sum over 22 blocks of 256 is the sum over 5632. No finiteness is needed:
  only the commutative-monoid laws of + and the absorbing zero of the product are used.
-/
import proofs.«112127_j13434657702336_2_alg».proof.Defs
import proofs.«112127_j13434657702336_2_alg».proof.Proof.Gen.Kernel
import proofs.«112127_j13434657702336_2_alg».proof.Proof.Gen.Kernel.Frame
import proofs.«112127_j13434657702336_2_alg».proof.Proof.Gen.KernelIdeal
import proofs.«112127_j13434657702336_2_alg».proof.Proof.Gen.KernelIdeal.Frame
import proofs.«112127_j13434657702336_2_alg».proof.Proof.Gen.KernelIdeal.Value
import proofs.«112127_j13434657702336_2_alg».proof.Proof.Gen.ReferenceIdeal
import proofs.«112127_j13434657702336_2_alg».proof.Proof.Gen.ReferenceIdeal.Run
import proofs.«112127_j13434657702336_2_alg».proof.Proof.Gen.ReferenceIdeal.Read
import proofs.«112127_j13434657702336_2_alg».proof.Proof.Gen.Pre_finite_inputs
import proofs.«112127_j13434657702336_2_alg».proof.Proof.Spec
import proofs.«112127_j13434657702336_2_alg».proof.Proof.RefValue
import proofs.«112127_j13434657702336_2_alg».proof.Proof.Final
import Idealize.ShloMosaic.Adequacy
import Idealize.ShloMosaic.Init

noncomputable section

namespace Cert.Proof

open Idealize.ShloMosaic Idealize.SL.Sem

/-- Each kernel program terminates without a fault and leaves its arguments as they were. -/
theorem frame_k : Cert.frame_Kernel := fun m ρ _ => Cert.Kernel.Gen.frame m ρ
theorem frame_ki : Cert.frame_KernelIdeal := fun m ρ _ => Cert.KernelIdeal.Gen.frame m ρ
/-- So does the reference: its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the result array at the layer's value of the arguments, and the arguments agree. -/
theorem algebraic : Cert.algebraic_KernelIdeal_ReferenceIdeal := by
  intro m ρ m' ρ' _ hagree
  refine ⟨fun c => Cert.KernelIdeal.Final.resultOf m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7⟩ := hagree c
  rw [Cert.ReferenceIdeal.Read.val_main_v11_eq, Cert.ReferenceIdeal.RefValue.ref_eq, h0, h1, h2, h3, h4, h5, h6, h7]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
